-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x2 : Shape := ⟨2, ![8192, 2]⟩
abbrev S4096x2 : Shape := ⟨2, ![4096, 2]⟩
abbrev S8192x256 : Shape := ⟨2, ![8192, 256]⟩
abbrev S1024 : Shape := ⟨1, ![1024]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part2 {F : FTy → Type} [FloatOps F] (main_arg8 : FVec F S256 .f32) (main_arg9 : FVec F S768x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg9
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S768x256 .f32) (main_arg10 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S8192 .f32) (main_arg1 : IVec S8192x2 32) (main_arg2 : FVec F S4096x2 .f32) (main_arg3 : FVec F S8192x256 .f32) (main_arg4 : FVec F S1024 .f32) (main_arg5 : FVec F S256x256 .f32) (main_arg6 : FVec F S256 .f32) (main_arg7 : FVec F S256x256 .f32) (main_arg8 : FVec F S256 .f32) (main_arg9 : FVec F S768x256 .f32) (main_arg10 : FVec F S256 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_v13 main_v16
-- ==== Kernel.lean ====
abbrev S8192 : Shape := ⟨1, ![8192]⟩
abbrev S8192x2 : Shape := ⟨2, ![8192, 2]⟩
abbrev S4096x2 : Shape := ⟨2, ![4096, 2]⟩
abbrev S8192x256 : Shape := ⟨2, ![8192, 256]⟩
abbrev S1024 : Shape := ⟨1, ![1024]⟩
abbrev S256x256 : Shape := ⟨2, ![256, 256]⟩
abbrev S256 : Shape := ⟨1, ![256]⟩
abbrev S768x256 : Shape := ⟨2, ![768, 256]⟩
abbrev S1024x256 : Shape := ⟨2, ![1024, 256]⟩
abbrev S1x256 : Shape := ⟨2, ![1, 256]⟩
abbrev S1024x1024 : Shape := ⟨2, ![1024, 1024]⟩

abbrev nBuf : Space → Nat
  | .hbm => 15
  | .vmem => 30
  | .smem => 0
  | _ => 0

abbrev bufTy : (tb : Table) → Fin (tcTables nBuf tb) → BufTy
  | .hbm, ⟨0, _⟩ => ⟨S8192, .f32⟩
  | .hbm, ⟨1, _⟩ => ⟨S8192x2, .i32⟩
  | .hbm, ⟨2, _⟩ => ⟨S4096x2, .f32⟩
  | .hbm, ⟨3, _⟩ => ⟨S8192x256, .f32⟩
  | .hbm, ⟨4, _⟩ => ⟨S1024, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S768x256, .f32⟩
  | .hbm, ⟨10, _⟩ => ⟨S256, .f32⟩
  | .hbm, ⟨11, _⟩ => ⟨S8192x256, .bf16⟩
  | .hbm, ⟨12, _⟩ => ⟨S8192x256, .bf16⟩
  | .hbm, ⟨13, _⟩ => ⟨S8192x256, .bf16⟩
  | .hbm, ⟨14, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S768x256, .f32⟩
  | .local _ .vmem, ⟨25, _⟩ => ⟨S256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_23 : BitVec 32 := 0#32
  let v35 : BitVec 1 := Scalar.cmpi .ne v34 c0_i32_23
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S768x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S768x256_S768x256_0_0 : ∀ a, (![0, 0] : Fin 2 → Nat) a + S768x256.size a ≤ S768x256.size a
  h_S768x256 : 0 < S768x256.numel
  slices_S768x256_o0_0_S256x256 : S768x256.Slices ![0, 0] S256x256
  slices_S768x256_o256_0_S256x256 : S768x256.Slices ![256, 0] S256x256
  slices_S768x256_o512_0_S256x256 : S768x256.Slices ![512, 0] S256x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .bf16 = 32 ∨ (Rect.block (s := S8192x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .bf16 = 32 ∨ (Rect.block (s := S8192x256) S1024x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .bf16 = 32 ∨ (Rect.block (s := S8192x256) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .bf16 = 32 ∨ (Rect.block (s := S8192x256) S1024x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .bf16 = 32 ∨ (Rect.block (s := S8192x256) S1024x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x256.size a ≤ S768x256.size a
  hwx1_6 : ∀ i : grid1.Coords, EltTy.bits .f32 = 32 ∨ (Rect.block (s := S768x256) S768x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S8192x256.size a
  hwx1_8 : ∀ i : grid1.Coords, EltTy.bits .f32 = 32 ∨ (Rect.block (s := S8192x256) S1024x256.size (cc1_transform_8 i) (hinb1_8 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg3) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_2) S1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_2) S1024x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S768x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1) S1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192 : Shape := ⟨1, ![8192]⟩
abbrev S8192x2 : Shape := ⟨2, ![8192, 2]⟩
abbrev S4096x2 : Shape := ⟨2, ![4096, 2]⟩
abbrev S8192x256 : Shape := ⟨2, ![8192, 256]⟩
abbrev S1024 : Shape := ⟨1, ![1024]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S256x8192 : Shape := ⟨2, ![256, 8192]⟩
abbrev S8192x8192 : Shape := ⟨2, ![8192, 8192]⟩
abbrev S8192x768 : Shape := ⟨2, ![8192, 768]⟩

abbrev nBuf : Space → Nat
  | .hbm => 45
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x2, .i32⟩
  | .hbm, ⟨2, _⟩ => ⟨S4096x2, .f32⟩
  | .hbm, ⟨3, _⟩ => ⟨S8192x256, .f32⟩
  | .hbm, ⟨4, _⟩ => ⟨S1024, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S768x256, .f32⟩
  | .hbm, ⟨10, _⟩ => ⟨S256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S256x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S256x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x256, .f32⟩
  | .hbm, ⟨36, _⟩ => ⟨S8192x256, .f32⟩
  | .hbm, ⟨37, _⟩ => ⟨S8192x768, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S8192x256_S256x8192_1_0 : S8192x256.Transposes [1, 0] S256x8192
  bcast_S_S8192x8192 : S_.BroadcastsInDim S8192x8192 (![] : Fin 0 → Fin S8192x8192.rank)
  concatenates_S8192x256_S8192x256_S8192x256_S8192x768_d1 : Shape.Concatenates [S8192x256, S8192x256, S8192x256] S8192x768 1
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x768_S768x256_S8192x256_1_0_0_1_n_n_wf : DotDims.WF S8192x768 S768x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf

class Facts : Prop extends Facts₀ where

variable [Facts]
-- ==== Proof.Region0.lean ====
/- Region 0 of the program: the first pallas_call, the two linear layers over one block of rows. Stated at a parameter
   `V`, the TensorCore's buffer contents when the region is entered: each window's block at a grid point, what the body
   leaves in each output window's buffer, the body's triple, the pipeline's proof data and the body obligation. -/
import proofs.«111572_j12214886990221_2_alg».proof.Proof.Gen.KernelIdeal.Launch
import proofs.«111572_j12214886990221_2_alg».proof.Proof.Gen.KernelIdeal.Skeleton
import proofs.«111572_j12214886990221_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 x 256 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    kept it from the point before (an unfetched input's block index has not moved), for any proof data whose array is
    the entry contents (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    kept it from the point before (an unfetched input's block index has not moved), for any proof data whose array is
    the entry contents (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    kept it from the point before (an unfetched input's block index has not moved), for any proof data whose array is
    the entry contents (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or
    kept it from the point before (an unfetched input's block index has not moved), for any proof data whose array is
    the entry contents (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or
    kept it from the point before (an unfetched input's block index has not moved), for any proof data whose array is
    the entry contents (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S256 := Rect.unit (s := S256) ![0] S256.size inb_S256_S256_0

/-! ## What the body leaves in each output window's buffer -/

/-- Window 5's buffer after the body: the first linear layer of the row block `x` with weights `w1` and bias `b1`,
    its one store as a single piece. -/
def out0_5 (x : Vec F S1024x256 .f32) (w1 : Vec F S256x256 .f32) (b1 : Vec F S256 .f32) : Vec F S1024x256 .bf16 :=
  View.canon [⟨rX, k0_pay2 (View.ld x rX) (View.ld w1 rW) (View.ld b1 rB)⟩]

/-- Window 6's buffer after the body: the second linear layer, weights `w2` and bias `b2`. -/
def out0_6 (x : Vec F S1024x256 .f32) (w2 : Vec F S256x256 .f32) (b2 : Vec F S256 .f32) : Vec F S1024x256 .bf16 :=
  View.canon [⟨rX, k0_pay3 (View.ld x rX) (View.ld w2 rW) (View.ld b2 rB)⟩]

/-- Window 7's buffer after the body: the row block rounded to bf16. -/
def out0_7 (x : Vec F S1024x256 .f32) : Vec F S1024x256 .bf16 :=
  View.canon [⟨rX, k0_pay1 (View.ld x rX)⟩]

/-- One store of the whole buffer tiles it, so it covers it. -/
theorem cover0 (p0 : Vec F S1024x256 .bf16) (y : S1024x256.Idx) :
    ∃ pc ∈ ([⟨rX, p0⟩] : List (View.Piece (Elt F) S1024x256 .bf16)), y ∈ pc.1.set :=
  View.cover_of_tiled [⟨rX, p0⟩] S1024x256.size (by rfl) y

/-! ## The body's triple -/

set_option maxHeartbeats 1000000 in
/-- The kernel body on whole staging memrefs, the five inputs' at read contents and the three outputs' at anything,
    runs to the continuation holding the inputs' as they were and each output's at `out0_W` of the inputs': every
    output buffer is loaded (the value is dropped) and then stored whole, once. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S1024x256 .bf16) (harg6 : arg6.IsWhole)
    (arg7 : Memref sig .tc .vmem S1024x256 .bf16) (harg7 : arg7.IsWhole) (arg8 : Memref sig .tc .vmem S1024x256 .bf16) (harg8 : arg8.IsWhole)
    (x : Vec F S1024x256 .f32) (w1 : Vec F S256x256 .f32) (b1 : Vec F S256 .f32) (w2 : Vec F S256x256 .f32) (b2 : Vec F S256 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (out0_5 x w1 b1) ∗ owns (c : Thread nD τ) arg7 fullShare (out0_6 x w2 b2)
            ∗ owns (c : Thread nD τ) arg8 fullShare (out0_7 x)) -∗ K ⟨⟩))
      ⊢ wp frame (wpE (defs₀ (F := F)) Variants.none c none) E (cc0__dual_linear_kernel i arg1 harg1 arg2 harg2 arg3 harg3 arg4 harg4 arg5 harg5 arg6 harg6 arg7 harg7 arg8 harg8) K := by
  simp only [cc0__dual_linear_kernel_eq_skeleton]; unfold cc0__dual_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The proof data of pipeline 0 on core `c`: the arrays as the region finds them; after the body at point `t` each
    input's buffer at its block and each output's at `out0_W` of the input blocks there; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
    | ⟨7, _⟩ => out0_7 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]
theorem after0_7 (c : Dev nD) (t : Fin cfg0.N) : (dat0 V c).after 7 t = out0_7 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The second kernel region (the tiled aggregation with the fused last layer), what its three control cases share.
  The region's grid is 8 × 8: point t has row-block i = t / 8 and reduction step j = t % 8.  The body zeroes its two
  accumulators when j = 0, adds one block's contribution to each at every step, and at j = 7 computes the output block
  from them; elsewhere the output block is left alone and is not written back.  Here: each window's block as read off the
  arrays the region is entered with, the two branch conditions decided over the grid, where the output window is idle,
  and the staging and scratch memrefs the body is called on.
-/
import proofs.«111572_j12214886990221_2_alg».proof.Proof.Gen.KernelIdeal.Launch
import proofs.«111572_j12214886990221_2_alg».proof.Proof.Gen.KernelIdeal.Skeleton
import proofs.«111572_j12214886990221_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (where it is not
    fetched its block index has not moved), for any proof data over these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (where it is not
    fetched its block index has not moved), for any proof data over these arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (where it is not
    fetched its block index has not moved), for any proof data over these arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, over the grid -/

/-- "This is the first reduction step": the body's first conditional, as a scalar chain over the grid coordinates. -/
abbrev cond1_0 (i : grid1.Coords) : Prop := (Scalar.cmpi .ne (Scalar.extui (Scalar.cmpi .eq (BitVec.ofNat 32 (i 1).val) 0#32)) 0#32) = 1#1
/-- It holds exactly at the points with j = 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last reduction step": the body's second conditional. -/
abbrev cond1_1 (i : grid1.Coords) : Prop := k1_cond2 i = 1#1
/-- It holds exactly at the points with j = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- At a first step that is not a last one the output window is idle and is not written back. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
/-- The same at a step that is neither first nor last. -/
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
/-- At a last step the output window is live: the body stores the whole block. -/
theorem liveAt1_8_C : ∀ t : Fin cfg1.N, ¬cond1_0 (grid1.coords t) → cond1_1 (grid1.coords t) → cfg1.idle 8 (grid1.coords t) = false := by decide +kernel

/-! ## The memrefs the body is called on -/

/-- One staging buffer of the output window, through which its contents are stated. -/
abbrev VO1_8 : View sig .tc .vmem S1024x256 .f32 := (Memref.whole cc1_stg8_0 : Memref sig .tc .vmem S1024x256 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x256 .f32 := win1_8.stage (cfg1.slots t 8)
abbrev hs1_8 (t : Fin cfg1.N) : (ms1_8 t).IsWhole := hstage1_8 ((cfg1.slots t 8).cast nbuf1_8)
/-- The two accumulators: whole scoped buffers of the kernel's own, carried from one point to the next. -/
abbrev scM1_0 : Memref sig .tc .vmem S1024x256 .f32 := Memref.whole cc1_scratch0
abbrev scM1_1 : Memref sig .tc .vmem S1024x256 .f32 := Memref.whole cc1_scratch1
abbrev VS1_0 : View sig .tc .vmem S1024x256 .f32 := scM1_0.view
abbrev VS1_1 : View sig .tc .vmem S1024x256 .f32 := scM1_1.view

/-- What the launch hands the region besides its windows: the first region's staging buffers (never touched here), the two
    accumulators at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.Region1RunA.lean ====
/-
  The body of the second kernel region at a FIRST reduction step (j = 0, not the last): both accumulators are zeroed and then receive block 0's contribution; the output block is not touched.
  The run is found by symbolic execution; the lists of pieces each buffer ends with are its witness.
-/
import proofs.«111572_j12214886990221_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs holding the input blocks, the body runs to its end leaving the inputs as they were, the output buffer untouched,
    and each accumulator with its pieces written over whatever it held. -/
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) :
    Σ' (L8 : List (View.Piece (Elt F) S1024x256 .f32)) (LS0 : List (View.Piece (Elt F) S1024x256 .f32)), { LS1 : List (View.Piece (Elt F) S1024x256 .f32) //
      ∀ (xi8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__agg_final_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc1__agg_final_kernel_eq_skeleton]; unfold cc1__agg_final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.Region1RunB.lean ====
/-
  The body of the second kernel region at a MIDDLE reduction step (0 < j < 7): each accumulator, carried from the step before, receives one more block's contribution; the output block is not touched.
  The run is found by symbolic execution; the lists of pieces each buffer ends with are its witness.
-/
import proofs.«111572_j12214886990221_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs holding the input blocks, the body runs to its end leaving the inputs as they were, the output buffer untouched,
    and each accumulator with its pieces written over what the step before left. -/
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    Σ' (L8 : List (View.Piece (Elt F) S1024x256 .f32)) (LS0 : List (View.Piece (Elt F) S1024x256 .f32)), { LS1 : List (View.Piece (Elt F) S1024x256 .f32) //
      ∀ (xi8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__agg_final_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc1__agg_final_kernel_eq_skeleton]; unfold cc1__agg_final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.Region1RunC.lean ====
/-
  The body of the second kernel region at the LAST reduction step (j = 7): each accumulator receives the last block's contribution, and the output block is computed from the two finished accumulators and stored whole.
  The run is found by symbolic execution; the lists of pieces each buffer ends with are its witness.
-/
import proofs.«111572_j12214886990221_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs holding the input blocks, the body runs to its end leaving the inputs as they were, the output buffer with its pieces written,
    and each accumulator with its pieces written over what the step before left. -/
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    Σ' (L8 : List (View.Piece (Elt F) S1024x256 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__agg_final_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__agg_final_kernel_eq_skeleton]; unfold cc1__agg_final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.KernelIdeal.Hand

end
-- ==== Proof.Region1.lean ====
/-
  The second kernel region point by point.  After the body at point t the output block's staging buffer and the two
  accumulators hold a triple that depends on the point's case and, except at a first reduction step, on the two
  accumulators the point before left: this recursion over the points is the region's whole content.  The region
  invariant names the accumulators' contents from the second point on; the body obligation is a case split on
  j = t % 8 (first step, middle step, last step), each case being that case's run of the body.
-/
import proofs.«111572_j12214886990221_2_alg».proof.Proof.Region1RunA
import proofs.«111572_j12214886990221_2_alg».proof.Proof.Region1RunB
import proofs.«111572_j12214886990221_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulators and in the output block -/

/-- The first-step case's pieces for the first accumulator tile it. -/
theorem scover1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 S1024x256.size (by sl_kernel_rfl) y
/-- … and what they leave there. -/
def sout1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) : Vec F S1024x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)
/-- The same for the second accumulator. -/
theorem scover1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S1024x256.size (by sl_kernel_rfl) y
def sout1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) : Vec F S1024x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)
/-- The output block's buffer after the case (nothing is stored: a placeholder nobody reads, the window being idle and not written back). -/
def out1_A_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) : Vec F S1024x256 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- The middle-step case's pieces for the first accumulator tile it. -/
theorem scover1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S1024x256.size (by sl_kernel_rfl) y
/-- … and what they leave there. -/
def sout1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The same for the second accumulator. -/
theorem scover1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S1024x256.size (by sl_kernel_rfl) y
def sout1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
/-- The output block's buffer after the case (nothing is stored: a placeholder nobody reads, the window being idle and not written back). -/
def out1_B_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)

/-- The last-step case's pieces for the first accumulator tile it. -/
theorem scover1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S1024x256.size (by sl_kernel_rfl) y
/-- … and what they leave there. -/
def sout1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The same for the second accumulator. -/
theorem scover1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S1024x256.size (by sl_kernel_rfl) y
def sout1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
/-- The output block's buffer after the case: the one whole-block store. -/
def out1_C_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)
theorem cover1_C_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 S1024x256.size (by sl_kernel_rfl) y

/-! ## The recursion over the points -/

/-- A first reduction step: (output buffer, first accumulator, second accumulator) after the body. -/
def stepA (c : Dev nD) (t : Fin cfg1.N) (h0 : t.val % 8 = 0) (h1 : ¬t.val % 8 = 7) : Vec F S1024x256 .f32 × Vec F S1024x256 .f32 × Vec F S1024x256 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
/-- A middle step, from the accumulators `s0`, `s1` the step before left. -/
def stepB (c : Dev nD) (t : Fin cfg1.N) (h0 : ¬t.val % 8 = 0) (h1 : ¬t.val % 8 = 7) (s0 s1 : Vec F S1024x256 .f32) : Vec F S1024x256 .f32 × Vec F S1024x256 .f32 × Vec F S1024x256 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1)
/-- The last step, from the accumulators the step before left. -/
def stepC (c : Dev nD) (t : Fin cfg1.N) (h0 : ¬t.val % 8 = 0) (h1 : t.val % 8 = 7) (s0 s1 : Vec F S1024x256 .f32) : Vec F S1024x256 .f32 × Vec F S1024x256 .f32 × Vec F S1024x256 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1)

/-- What the output block's buffer and the two accumulators hold after the body at position `n`: the case j = n % 8
    selects, run on the point's blocks and, past a first step, on the accumulators of position `n - 1`. -/
def outsAt1 (c : Dev nD) : (n : ℕ) → n < cfg1.N → Vec F S1024x256 .f32 × Vec F S1024x256 .f32 × Vec F S1024x256 .f32
  | 0, hn => stepA V c ⟨0, hn⟩ (Nat.zero_mod _) (fun h => absurd ((Nat.zero_mod 8).symm.trans h) (by decide))
  | n + 1, hn =>
    if h0 : (n + 1) % 8 = 0 then
      if h1 : (n + 1) % 8 = 7 then False.elim (by omega)
      else stepA V c ⟨n + 1, hn⟩ h0 h1
    else
      if h1 : (n + 1) % 8 = 7 then
        stepC V c ⟨n + 1, hn⟩ h0 h1 (outsAt1 c n (Nat.lt_of_succ_lt hn)).2.1 (outsAt1 c n (Nat.lt_of_succ_lt hn)).2.2
      else
        stepB V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = stepA V c t h0 h1 := by
  obtain ⟨n, hn⟩ := t
  cases n with
  | zero => rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region invariant -/

/-- Before the first point: what the launch hands over (both accumulators at anything).  Before a later point: the same
    with each accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

/-- The arrays as the region finds them; after the body each input's buffer at its block and the output's at the
    recursion's first component; the invariant above; nothing owed.  The three arrays the first region wrote are each
    read through two windows (a row-block window and a reduction-step window), which hold one half of the array's share
    each; the last layer's weights and bias are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: each input's memref holds its block; j = t % 8 says which case the point is in; the invariant
    hands over the accumulators (at anything before the first point, at what the point before left afterwards) and takes
    them back at this point's contents; the output block's buffer is handed back untouched except at a last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 8 = 0
  · have h1 : ¬t.val % 8 = 7 := by omega
    rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
    rw [outsAt1_A V c t h0 h1]
    unfold stepA sout1_A_0 sout1_A_1; (try dsimp only)
    by_cases hz : t.val = 0
    · rw [PhiS1_castSucc V c t, PhiS1_zero V c _ _ hz, PhiA1_eq]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS1_castSucc V c t, PhiS1_pos V c _ _ hz]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      iintro ⟨H0, H1, H2, H3, H4, H5, H6, H7, H8, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 8 = 7
    · rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold stepC out1_C_8 sout1_C_0 sout1_C_1; (try dsimp only)
      rw [PhiS1_castSucc V c t, PhiS1_pos V c _ _ hz]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _)
    · rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold stepB sout1_B_0 sout1_B_1; (try dsimp only)
      rw [PhiS1_castSucc V c t, PhiS1_pos V c _ _ hz]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back, the accumulators' contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨R0, R1, R2, R3, R4, R5, R6, R7, R8, R9, R10, R11, HS0, HS1⟩, Hg⟩
  isplitl [R0 R1 R2 R3 R4 R5 R6 R7 R8 R9 R10 R11 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    iexists _; iexact HS1
  iexact Hg

end Cert.KernelIdeal.Hand

end
-- ==== Proof.Region1Shares.lean ====
/-
  Entering and leaving the second kernel region.  The region reads each of the three arrays the first region wrote
  through TWO windows (its row-block i and its reduction block j), so the array's full share is dealt to the two windows
  as its two halves on the way in, and the halves — still at the entry contents, an input window never being written
  back — are joined again on the way out.  The output array comes back at what the write-backs leave; every other
  buffer is untouched.
-/
import proofs.«111572_j12214886990221_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct buffers behind the region's nine windows, listed. -/
theorem arrBufs1_eq (c : Dev nD) (U : (b : Ref sig .tc) → Buf (Elt F) ((c : Thread nD τ).loc b)) :
    (Pipeline.arrBufs spec1 c U : sProp 𝕄) = iprop((((c : Thread nD τ).loc main_v0_0) ↦{fullShare} U main_v0_0) ∗ (((c : Thread nD τ).loc main_v0_1) ↦{fullShare} U main_v0_1) ∗ (((c : Thread nD τ).loc main_v0_2) ↦{fullShare} U main_v0_2) ∗ (((c : Thread nD τ).loc main_arg9) ↦{fullShare} U main_arg9) ∗ (((c : Thread nD τ).loc main_arg10) ↦{fullShare} U main_arg10) ∗ (((c : Thread nD τ).loc main_v1) ↦{fullShare} U main_v1)) := by
  unfold Pipeline.arrBufs
  exact Idealize.SL.BI.bigSep_eq_bigSepL_of_eq [main_v0_0, main_v0_1, main_v0_2, main_arg9, main_arg10, main_v1] (by decide) (by decide) _

/-- The proof data's windowed arrays, window by window, each at its share. -/
theorem arrays1_eq (c : Dev nD) (G : (w : Fin cfg1.W) → Buf (Elt F) ((cfg1.win w).arr.view.loc (c : Thread nD τ))) :
    ((dat1 V c).arrays G : sProp 𝕄) = iprop((((c : Thread nD τ).loc main_v0_0) ↦{fullShare.left} G 0) ∗ (((c : Thread nD τ).loc main_v0_0) ↦{fullShare.right} G 1) ∗ (((c : Thread nD τ).loc main_v0_1) ↦{fullShare.left} G 2) ∗ (((c : Thread nD τ).loc main_v0_1) ↦{fullShare.right} G 3) ∗ (((c : Thread nD τ).loc main_v0_2) ↦{fullShare.left} G 4) ∗ (((c : Thread nD τ).loc main_v0_2) ↦{fullShare.right} G 5) ∗ (((c : Thread nD τ).loc main_arg9) ↦{fullShare} G 6) ∗ (((c : Thread nD τ).loc main_arg10) ↦{fullShare} G 7) ∗ (((c : Thread nD τ).loc main_v1) ↦{fullShare} G 8)) := by
  have hw : ∀ w : Fin cfg1.W, (cfg1.win w).arr.IsWhole := arr_whole1
  unfold Dat.arrays; rw [bigSep_W1]
  rewrite [(hw 0).set_eq_univ, (hw 2).set_eq_univ, (hw 4).set_eq_univ, (hw 6).set_eq_univ, (hw 7).set_eq_univ, (hw 8).set_eq_univ]
  rfl

/-- An input window's array is never written: after any number of points it holds the entry contents. -/
theorem arrAt1_in (c : Dev nD) (n : ℕ) :
    (dat1 V c).arrAt 0 n = V c (Pipeline.arrRef spec1 0)
    ∧ (dat1 V c).arrAt 1 n = V c (Pipeline.arrRef spec1 1)
    ∧ (dat1 V c).arrAt 2 n = V c (Pipeline.arrRef spec1 2)
    ∧ (dat1 V c).arrAt 3 n = V c (Pipeline.arrRef spec1 3)
    ∧ (dat1 V c).arrAt 4 n = V c (Pipeline.arrRef spec1 4)
    ∧ (dat1 V c).arrAt 5 n = V c (Pipeline.arrRef spec1 5)
    ∧ (dat1 V c).arrAt 6 n = V c (Pipeline.arrRef spec1 6)
    ∧ (dat1 V c).arrAt 7 n = V c (Pipeline.arrRef spec1 7) :=
  ⟨((dat1 V c).arrAt_in 0 rfl _).trans (A_eq1 V c 0),
   ((dat1 V c).arrAt_in 1 rfl _).trans (A_eq1 V c 1),
   ((dat1 V c).arrAt_in 2 rfl _).trans (A_eq1 V c 2),
   ((dat1 V c).arrAt_in 3 rfl _).trans (A_eq1 V c 3),
   ((dat1 V c).arrAt_in 4 rfl _).trans (A_eq1 V c 4),
   ((dat1 V c).arrAt_in 5 rfl _).trans (A_eq1 V c 5),
   ((dat1 V c).arrAt_in 6 rfl _).trans (A_eq1 V c 6),
   ((dat1 V c).arrAt_in 7 rfl _).trans (A_eq1 V c 7)⟩

/-- ENTRY: the core's unscoped buffers at `V c` give the windows' arrays at the entry contents, the three shared arrays
    split in halves, beside the buffers the region does not window. -/
theorem enter1 (c : Dev nD) :
    (unscopedBufs c (V c) : sProp 𝕄) ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.PerCore.unscopedBufs_split₀ (fun _ : Dev nD => cfgs) (1 : Fin 2) c winFacts₀1.arr_unscoped (V c)
  rewrite [hs, arrBufs1_eq, arrays1_eq]
  iintro ⟨⟨H0, H1, H2, H9, H10, Hv⟩, Hrest⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  ihave H2' := (pointsTo_share (PosShare.mem_left_op_right fullShare)).1 $$ H2
  icases H2' with ⟨H2l, H2r⟩
  isplitr [Hrest]
  · isplitl [H0l]; · iexact H0l
    isplitl [H0r]; · iexact H0r
    isplitl [H1l]; · iexact H1l
    isplitl [H1r]; · iexact H1r
    isplitl [H2l]; · iexact H2l
    isplitl [H2r]; · iexact H2r
    isplitl [H9]; · iexact H9
    isplitl [H10]; · iexact H10
    iexact Hv
  iexact Hrest

/-- EXIT: the windows' arrays after all the points — the inputs still at the entry contents, the output at what the
    write-backs leave — and the other buffers make the core's unscoped buffers at any valuation `U` that is `V c` with the
    output array replaced. -/
theorem exit1 (c : Dev nD) (U : (b : Ref sig .tc) → Buf (Elt F) ((c : Thread nD τ).loc b))
    (hout : U main_v1 = (dat1 V c).arrAt 8 cfg1.N) (hrest : ∀ b, b ≠ main_v1 → U b = V c b) :
    iprop((dat1 V c).arrays ((dat1 V c).arrAt · cfg1.N) ∗ Pipeline.unscopedRest spec1 c (V c)) ⊢ (unscopedBufs c U : sProp 𝕄) := by
  have hs : (unscopedBufs c U : sProp 𝕄) = iprop(Pipeline.arrBufs spec1 c U ∗ Pipeline.unscopedRest spec1 c U) :=
    Pipeline.PerCore.unscopedBufs_split₀ (fun _ : Dev nD => cfgs) (1 : Fin 2) c winFacts₀1.arr_unscoped U
  have hR : (Pipeline.unscopedRest spec1 c U : sProp 𝕄) = Pipeline.unscopedRest spec1 c (V c) := by
    unfold Pipeline.unscopedRest
    exact bigSep_congr fun b hb => by
      rw [hrest b (fun e => (Finset.mem_sdiff.mp hb).2 (Finset.mem_image.mpr ⟨8, Finset.mem_univ _, by subst e; rfl⟩))]
  rewrite [hs, hR, arrBufs1_eq, arrays1_eq]
  obtain ⟨e0, e1, e2, e3, e4, e5, e6, e7⟩ := arrAt1_in V c cfg1.N
  have g0 : U main_v0_0 = V c main_v0_0 := hrest main_v0_0 (by decide)
  have g1 : U main_v0_1 = V c main_v0_1 := hrest main_v0_1 (by decide)
  have g2 : U main_v0_2 = V c main_v0_2 := hrest main_v0_2 (by decide)
  have g3 : U main_arg9 = V c main_arg9 := hrest main_arg9 (by decide)
  have g4 : U main_arg10 = V c main_arg10 := hrest main_arg10 (by decide)
  rewrite [hout, g0, g1, g2, g3, g4]
  dsimp only
  rewrite [e0, e1, e2, e3, e4, e5, e6, e7]
  iintro ⟨⟨H0l, H0r, H1l, H1r, H2l, H2r, H9, H10, Hv⟩, Hrest⟩
  ihave H0 := (pointsTo_share (PosShare.mem_left_op_right fullShare)).2 $$ [H0l H0r]
  · isplitl [H0l]; · iexact H0l
    iexact H0r
  ihave H1 := (pointsTo_share (PosShare.mem_left_op_right fullShare)).2 $$ [H1l H1r]
  · isplitl [H1l]; · iexact H1l
    iexact H1r
  ihave H2 := (pointsTo_share (PosShare.mem_left_op_right fullShare)).2 $$ [H2l H2r]
  · isplitl [H2l]; · iexact H2l
    iexact H2r
  isplitr [Hrest]
  · isplitl [H0]; · iexact H0
    isplitl [H1]; · iexact H1
    isplitl [H2]; · iexact H2
    isplitl [H9]; · iexact H9
    isplitl [H10]; · iexact H10
    iexact Hv
  iexact Hrest

end Cert.KernelIdeal.Hand

end
-- ==== Proof.Run.lean ====
/-
  The whole program as two kernel regions in sequence, and what every unscoped buffer holds at the end.  The buffer
  contents are followed through the program: as launched; after the first region (its three output arrays at what its
  write-backs leave, everything else untouched); after the second region (the result array at what ITS write-backs leave).
  Each region is entered from the thread state "every unscoped buffer at the current contents, the generator register at
  some state, nothing owed" and left at the same state over the next contents.  Every argument array is read by the regions
  only through input windows, or not at all, so it ends as launched.
-/
import proofs.«111572_j12214886990221_2_alg».proof.Proof.Region0
import proofs.«111572_j12214886990221_2_alg».proof.Proof.Region1Shares
import proofs.«111572_j12214886990221_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: the result array at what its pipeline leaves, every other buffer as after the first. -/
def W2 (c : Dev nD) : Valuation τ sig (Elt F) :=
  Function.update (W1 m c) (Proc.devRef .tc main_v1) ((dat1 (V1 m) c).arrAt 8 cfg1.N)
theorem W2_out (c : Dev nD) : W2 m c (Proc.devRef .tc main_v1) = (dat1 (V1 m) c).arrAt 8 cfg1.N := by
  unfold W2; exact Function.update_self _ _ _
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b

/-! ### The arguments end as launched -/

theorem W2_main_arg0 (c : Dev nD) : W2 m c (Proc.devRef .tc main_arg0) = m ((c : Thread nD τ).loc main_arg0) :=
  (W2_of_ne m c main_arg0 (by decide)).trans <| (W1_of_ne m c main_arg0 (by decide)).trans rfl
theorem W2_main_arg1 (c : Dev nD) : W2 m c (Proc.devRef .tc main_arg1) = m ((c : Thread nD τ).loc main_arg1) :=
  (W2_of_ne m c main_arg1 (by decide)).trans <| (W1_of_ne m c main_arg1 (by decide)).trans rfl
theorem W2_main_arg2 (c : Dev nD) : W2 m c (Proc.devRef .tc main_arg2) = m ((c : Thread nD τ).loc main_arg2) :=
  (W2_of_ne m c main_arg2 (by decide)).trans <| (W1_of_ne m c main_arg2 (by decide)).trans rfl
theorem W2_main_arg3 (c : Dev nD) : W2 m c (Proc.devRef .tc main_arg3) = m ((c : Thread nD τ).loc main_arg3) :=
  (W2_of_ne m c main_arg3 (by decide)).trans <| (W1_arr m c 0).trans (((dat0 (V0 m) c).arrAt_in 0 rfl _).trans (A_eq0 (V0 m) c 0))
theorem W2_main_arg4 (c : Dev nD) : W2 m c (Proc.devRef .tc main_arg4) = m ((c : Thread nD τ).loc main_arg4) :=
  (W2_of_ne m c main_arg4 (by decide)).trans <| (W1_of_ne m c main_arg4 (by decide)).trans rfl
theorem W2_main_arg5 (c : Dev nD) : W2 m c (Proc.devRef .tc main_arg5) = m ((c : Thread nD τ).loc main_arg5) :=
  (W2_of_ne m c main_arg5 (by decide)).trans <| (W1_arr m c 1).trans (((dat0 (V0 m) c).arrAt_in 1 rfl _).trans (A_eq0 (V0 m) c 1))
theorem W2_main_arg6 (c : Dev nD) : W2 m c (Proc.devRef .tc main_arg6) = m ((c : Thread nD τ).loc main_arg6) :=
  (W2_of_ne m c main_arg6 (by decide)).trans <| (W1_arr m c 2).trans (((dat0 (V0 m) c).arrAt_in 2 rfl _).trans (A_eq0 (V0 m) c 2))
theorem W2_main_arg7 (c : Dev nD) : W2 m c (Proc.devRef .tc main_arg7) = m ((c : Thread nD τ).loc main_arg7) :=
  (W2_of_ne m c main_arg7 (by decide)).trans <| (W1_arr m c 3).trans (((dat0 (V0 m) c).arrAt_in 3 rfl _).trans (A_eq0 (V0 m) c 3))
theorem W2_main_arg8 (c : Dev nD) : W2 m c (Proc.devRef .tc main_arg8) = m ((c : Thread nD τ).loc main_arg8) :=
  (W2_of_ne m c main_arg8 (by decide)).trans <| (W1_arr m c 4).trans (((dat0 (V0 m) c).arrAt_in 4 rfl _).trans (A_eq0 (V0 m) c 4))
theorem W2_main_arg9 (c : Dev nD) : W2 m c (Proc.devRef .tc main_arg9) = m ((c : Thread nD τ).loc main_arg9) :=
  (W2_of_ne m c main_arg9 (by decide)).trans <| (W1_of_ne m c main_arg9 (by decide)).trans rfl
theorem W2_main_arg10 (c : Dev nD) : W2 m c (Proc.devRef .tc main_arg10) = m ((c : Thread nD τ).loc main_arg10) :=
  (W2_of_ne m c main_arg10 (by decide)).trans <| (W1_of_ne m c main_arg10 (by decide)).trans rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The two regions as segments -/

set_option backward.isDefEq.respectTransparency.types false in
/-- The first region: its eight arrays (all distinct) split out of the unscoped buffers on entry and put back at the exit
    contents; the generator register into the region invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: three of its arrays are each behind two windows, so the arrays are dealt to the windows by halves on
    entry and joined again on exit; otherwise as the first region, its invariant carrying the two accumulators. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := enter1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V1 m) c)
    unfold Pipeline.ΦA
    iintro ⟨Hp, -, Hr⟩
    isplitl [Hr]; · iexact Hr
    iexact Hp
  hout c := by
    refine (hout1 (V1 m) c).trans ?_
    rw [Pipeline.ownSems0_none]; unfold Pipeline.ΦA
    iintro ⟨Hr, Hp⟩
    isplitl [Hp]; · iexact Hp
    isplitr; · iempintro
    iexact Hr
  hexit c := by
    have hjoin := exit1 (V1 m) c (V2 m c) (W2_out m c) (fun b hb => W2_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as the two segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of the program on the TensorCores terminates, nothing
    faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c),
     (h c _ (mem_uc main_arg8 (by decide))).trans (W2_main_arg8 m c),
     (h c _ (mem_uc main_arg9 (by decide))).trans (W2_main_arg9 m c),
     (h c _ (mem_uc main_arg10 (by decide))).trans (W2_main_arg10 m c)⟩) (run_main m ρ)

/-- The same run with the result array named: what the second region's write-backs leave. -/
theorem run_result : θ_run defs (onTc (τ := τ) (main (F := F))) ⟨m, fun _ => 0, ρ⟩ (fun r => ∀ c : Dev nD,
      r.2.mem ((c.tc : Thread nD τ).loc main_v1) = (dat1 (V1 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v1 (by decide))).trans (W2_out m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c),
     (h c _ (mem_uc main_arg8 (by decide))).trans (W2_main_arg8 m c),
     (h c _ (mem_uc main_arg9 (by decide))).trans (W2_main_arg9 m c),
     (h c _ (mem_uc main_arg10 (by decide))).trans (W2_main_arg10 m c)⟩) (run_main m ρ)

end Cert.KernelIdeal.Hand

end
-- ==== Proof.BitsRegion0.lean ====
/- The statements below hold at every instance of the float operations; this module reads them at the instance whose
   floats are machine words. -/
/- Region 0 of the program: the first pallas_call, the two linear layers over one block of rows. Stated at a parameter
   `V`, the TensorCore's buffer contents when the region is entered: each window's block at a grid point, what the body
   leaves in each output window's buffer, the body's triple, the pipeline's proof data and the body obligation. -/
import proofs.«111572_j12214886990221_2_alg».proof.Proof.Gen.Kernel.Launch
import proofs.«111572_j12214886990221_2_alg».proof.Proof.Gen.Kernel.Skeleton
import proofs.«111572_j12214886990221_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 x 256 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    kept it from the point before (an unfetched input's block index has not moved), for any proof data whose array is
    the entry contents (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    kept it from the point before (an unfetched input's block index has not moved), for any proof data whose array is
    the entry contents (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    kept it from the point before (an unfetched input's block index has not moved), for any proof data whose array is
    the entry contents (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or
    kept it from the point before (an unfetched input's block index has not moved), for any proof data whose array is
    the entry contents (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or
    kept it from the point before (an unfetched input's block index has not moved), for any proof data whose array is
    the entry contents (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S256 := Rect.unit (s := S256) ![0] S256.size inb_S256_S256_0

/-! ## What the body leaves in each output window's buffer -/

/-- Window 5's buffer after the body: the first linear layer of the row block `x` with weights `w1` and bias `b1`,
    its one store as a single piece. -/
def out0_5 (x : Vec F S1024x256 .f32) (w1 : Vec F S256x256 .f32) (b1 : Vec F S256 .f32) : Vec F S1024x256 .bf16 :=
  View.canon [⟨rX, k0_pay2 (View.ld x rX) (View.ld w1 rW) (View.ld b1 rB)⟩]

/-- Window 6's buffer after the body: the second linear layer, weights `w2` and bias `b2`. -/
def out0_6 (x : Vec F S1024x256 .f32) (w2 : Vec F S256x256 .f32) (b2 : Vec F S256 .f32) : Vec F S1024x256 .bf16 :=
  View.canon [⟨rX, k0_pay3 (View.ld x rX) (View.ld w2 rW) (View.ld b2 rB)⟩]

/-- Window 7's buffer after the body: the row block rounded to bf16. -/
def out0_7 (x : Vec F S1024x256 .f32) : Vec F S1024x256 .bf16 :=
  View.canon [⟨rX, k0_pay1 (View.ld x rX)⟩]

/-- One store of the whole buffer tiles it, so it covers it. -/
theorem cover0 (p0 : Vec F S1024x256 .bf16) (y : S1024x256.Idx) :
    ∃ pc ∈ ([⟨rX, p0⟩] : List (View.Piece (Elt F) S1024x256 .bf16)), y ∈ pc.1.set :=
  View.cover_of_tiled [⟨rX, p0⟩] S1024x256.size (by rfl) y

/-! ## The body's triple -/

set_option maxHeartbeats 1000000 in
/-- The kernel body on whole staging memrefs, the five inputs' at read contents and the three outputs' at anything,
    runs to the continuation holding the inputs' as they were and each output's at `out0_W` of the inputs': every
    output buffer is loaded (the value is dropped) and then stored whole, once. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S1024x256 .bf16) (harg6 : arg6.IsWhole)
    (arg7 : Memref sig .tc .vmem S1024x256 .bf16) (harg7 : arg7.IsWhole) (arg8 : Memref sig .tc .vmem S1024x256 .bf16) (harg8 : arg8.IsWhole)
    (x : Vec F S1024x256 .f32) (w1 : Vec F S256x256 .f32) (b1 : Vec F S256 .f32) (w2 : Vec F S256x256 .f32) (b2 : Vec F S256 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (out0_5 x w1 b1) ∗ owns (c : Thread nD τ) arg7 fullShare (out0_6 x w2 b2)
            ∗ owns (c : Thread nD τ) arg8 fullShare (out0_7 x)) -∗ K ⟨⟩))
      ⊢ wp frame (wpE (defs₀ (F := F)) Variants.none c none) E (cc0__dual_linear_kernel i arg1 harg1 arg2 harg2 arg3 harg3 arg4 harg4 arg5 harg5 arg6 harg6 arg7 harg7 arg8 harg8) K := by
  simp only [cc0__dual_linear_kernel_eq_skeleton]; unfold cc0__dual_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The proof data of pipeline 0 on core `c`: the arrays as the region finds them; after the body at point `t` each
    input's buffer at its block and each output's at `out0_W` of the input blocks there; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
    | ⟨7, _⟩ => out0_7 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]
theorem after0_7 (c : Dev nD) (t : Fin cfg0.N) : (dat0 V c).after 7 t = out0_7 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Runs.lean ====
/- The statements below hold at every instance of the float operations; this module reads them at the instance whose
   floats are machine words. -/
/-
  The second kernel region (the tiled aggregation with the fused last layer), what its three control cases share.
  The region's grid is 8 × 8: point t has row-block i = t / 8 and reduction step j = t % 8.  The body zeroes its two
  accumulators when j = 0, adds one block's contribution to each at every step, and at j = 7 computes the output block
  from them; elsewhere the output block is left alone and is not written back.  Here: each window's block as read off the
  arrays the region is entered with, the two branch conditions decided over the grid, where the output window is idle,
  and the staging and scratch memrefs the body is called on.
-/
import proofs.«111572_j12214886990221_2_alg».proof.Proof.Gen.Kernel.Launch
import proofs.«111572_j12214886990221_2_alg».proof.Proof.Gen.Kernel.Skeleton
import proofs.«111572_j12214886990221_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (where it is not
    fetched its block index has not moved), for any proof data over these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (where it is not
    fetched its block index has not moved), for any proof data over these arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (where it is not
    fetched its block index has not moved), for any proof data over these arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, over the grid -/

/-- "This is the first reduction step": the body's first conditional, as a scalar chain over the grid coordinates. -/
abbrev cond1_0 (i : grid1.Coords) : Prop := (Scalar.cmpi .ne (Scalar.extui (Scalar.cmpi .eq (BitVec.ofNat 32 (i 1).val) 0#32)) 0#32) = 1#1
/-- It holds exactly at the points with j = 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last reduction step": the body's second conditional. -/
abbrev cond1_1 (i : grid1.Coords) : Prop := k1_cond2 i = 1#1
/-- It holds exactly at the points with j = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- At a first step that is not a last one the output window is idle and is not written back. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
/-- The same at a step that is neither first nor last. -/
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
/-- At a last step the output window is live: the body stores the whole block. -/
theorem liveAt1_8_C : ∀ t : Fin cfg1.N, ¬cond1_0 (grid1.coords t) → cond1_1 (grid1.coords t) → cfg1.idle 8 (grid1.coords t) = false := by decide +kernel

/-! ## The memrefs the body is called on -/

/-- One staging buffer of the output window, through which its contents are stated. -/
abbrev VO1_8 : View sig .tc .vmem S1024x256 .f32 := (Memref.whole cc1_stg8_0 : Memref sig .tc .vmem S1024x256 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x256 .f32 := win1_8.stage (cfg1.slots t 8)
abbrev hs1_8 (t : Fin cfg1.N) : (ms1_8 t).IsWhole := hstage1_8 ((cfg1.slots t 8).cast nbuf1_8)
/-- The two accumulators: whole scoped buffers of the kernel's own, carried from one point to the next. -/
abbrev scM1_0 : Memref sig .tc .vmem S1024x256 .f32 := Memref.whole cc1_scratch0
abbrev scM1_1 : Memref sig .tc .vmem S1024x256 .f32 := Memref.whole cc1_scratch1
abbrev VS1_0 : View sig .tc .vmem S1024x256 .f32 := scM1_0.view
abbrev VS1_1 : View sig .tc .vmem S1024x256 .f32 := scM1_1.view

/-- What the launch hands the region besides its windows: the first region's staging buffers (never touched here), the two
    accumulators at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.BitsRegion1RunA.lean ====
/- The statements below hold at every instance of the float operations; this module reads them at the instance whose
   floats are machine words. -/
/-
  The body of the second kernel region at a FIRST reduction step (j = 0, not the last): both accumulators are zeroed and then receive block 0's contribution; the output block is not touched.
  The run is found by symbolic execution; the lists of pieces each buffer ends with are its witness.
-/
import proofs.«111572_j12214886990221_2_alg».proof.Proof.BitsRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs holding the input blocks, the body runs to its end leaving the inputs as they were, the output buffer untouched,
    and each accumulator with its pieces written over whatever it held. -/
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) :
    Σ' (L8 : List (View.Piece (Elt F) S1024x256 .f32)) (LS0 : List (View.Piece (Elt F) S1024x256 .f32)), { LS1 : List (View.Piece (Elt F) S1024x256 .f32) //
      ∀ (xi8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__agg_final_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc1__agg_final_kernel_eq_skeleton]; unfold cc1__agg_final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.BitsRegion1RunB.lean ====
/- The statements below hold at every instance of the float operations; this module reads them at the instance whose
   floats are machine words. -/
/-
  The body of the second kernel region at a MIDDLE reduction step (0 < j < 7): each accumulator, carried from the step before, receives one more block's contribution; the output block is not touched.
  The run is found by symbolic execution; the lists of pieces each buffer ends with are its witness.
-/
import proofs.«111572_j12214886990221_2_alg».proof.Proof.BitsRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs holding the input blocks, the body runs to its end leaving the inputs as they were, the output buffer untouched,
    and each accumulator with its pieces written over what the step before left. -/
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    Σ' (L8 : List (View.Piece (Elt F) S1024x256 .f32)) (LS0 : List (View.Piece (Elt F) S1024x256 .f32)), { LS1 : List (View.Piece (Elt F) S1024x256 .f32) //
      ∀ (xi8 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__agg_final_kernel i arg2 harg2 arg3 harg3 arg4 harg4 arg5 harg5 arg6 harg6 arg7 harg7 arg8 harg8 arg9 harg9 arg10 harg10 arg11 harg11 arg12 harg12) K } := by
  refine ⟨[], ?_, ?_, fun xi8 E K => ?run⟩
  case run =>
    simp only [cc1__agg_final_kernel_eq_skeleton]; unfold cc1__agg_final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.BitsRegion1RunC.lean ====
/- The statements below hold at every instance of the float operations; this module reads them at the instance whose
   floats are machine words. -/
/-
  The body of the second kernel region at the LAST reduction step (j = 7): each accumulator receives the last block's contribution, and the output block is computed from the two finished accumulators and stored whole.
  The run is found by symbolic execution; the lists of pieces each buffer ends with are its witness.
-/
import proofs.«111572_j12214886990221_2_alg».proof.Proof.BitsRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs holding the input blocks, the body runs to its end leaving the inputs as they were, the output buffer with its pieces written,
    and each accumulator with its pieces written over what the step before left. -/
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    Σ' (L8 : List (View.Piece (Elt F) S1024x256 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__agg_final_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__agg_final_kernel_eq_skeleton]; unfold cc1__agg_final_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.Kernel.Hand

end
-- ==== Proof.BitsRegion1.lean ====
/- The statements below hold at every instance of the float operations; this module reads them at the instance whose
   floats are machine words. -/
/-
  The second kernel region point by point.  After the body at point t the output block's staging buffer and the two
  accumulators hold a triple that depends on the point's case and, except at a first reduction step, on the two
  accumulators the point before left: this recursion over the points is the region's whole content.  The region
  invariant names the accumulators' contents from the second point on; the body obligation is a case split on
  j = t % 8 (first step, middle step, last step), each case being that case's run of the body.
-/
import proofs.«111572_j12214886990221_2_alg».proof.Proof.BitsRegion1RunA
import proofs.«111572_j12214886990221_2_alg».proof.Proof.BitsRegion1RunB
import proofs.«111572_j12214886990221_2_alg».proof.Proof.BitsRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulators and in the output block -/

/-- The first-step case's pieces for the first accumulator tile it. -/
theorem scover1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 S1024x256.size (by sl_kernel_rfl) y
/-- … and what they leave there. -/
def sout1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) : Vec F S1024x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)
/-- The same for the second accumulator. -/
theorem scover1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S1024x256.size (by sl_kernel_rfl) y
def sout1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) : Vec F S1024x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)
/-- The output block's buffer after the case (nothing is stored: a placeholder nobody reads, the window being idle and not written back). -/
def out1_A_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) : Vec F S1024x256 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- The middle-step case's pieces for the first accumulator tile it. -/
theorem scover1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S1024x256.size (by sl_kernel_rfl) y
/-- … and what they leave there. -/
def sout1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The same for the second accumulator. -/
theorem scover1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S1024x256.size (by sl_kernel_rfl) y
def sout1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
/-- The output block's buffer after the case (nothing is stored: a placeholder nobody reads, the window being idle and not written back). -/
def out1_B_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)

/-- The last-step case's pieces for the first accumulator tile it. -/
theorem scover1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S1024x256.size (by sl_kernel_rfl) y
/-- … and what they leave there. -/
def sout1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The same for the second accumulator. -/
theorem scover1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S1024x256.size (by sl_kernel_rfl) y
def sout1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
/-- The output block's buffer after the case: the one whole-block store. -/
def out1_C_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) : Vec F S1024x256 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)
theorem cover1_C_8 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i)
    (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 S1024x256.size (by sl_kernel_rfl) y

/-! ## The recursion over the points -/

/-- A first reduction step: (output buffer, first accumulator, second accumulator) after the body. -/
def stepA (c : Dev nD) (t : Fin cfg1.N) (h0 : t.val % 8 = 0) (h1 : ¬t.val % 8 = 7) : Vec F S1024x256 .f32 × Vec F S1024x256 .f32 × Vec F S1024x256 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
/-- A middle step, from the accumulators `s0`, `s1` the step before left. -/
def stepB (c : Dev nD) (t : Fin cfg1.N) (h0 : ¬t.val % 8 = 0) (h1 : ¬t.val % 8 = 7) (s0 s1 : Vec F S1024x256 .f32) : Vec F S1024x256 .f32 × Vec F S1024x256 .f32 × Vec F S1024x256 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1)
/-- The last step, from the accumulators the step before left. -/
def stepC (c : Dev nD) (t : Fin cfg1.N) (h0 : ¬t.val % 8 = 0) (h1 : t.val % 8 = 7) (s0 s1 : Vec F S1024x256 .f32) : Vec F S1024x256 .f32 × Vec F S1024x256 .f32 × Vec F S1024x256 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1)

/-- What the output block's buffer and the two accumulators hold after the body at position `n`: the case j = n % 8
    selects, run on the point's blocks and, past a first step, on the accumulators of position `n - 1`. -/
def outsAt1 (c : Dev nD) : (n : ℕ) → n < cfg1.N → Vec F S1024x256 .f32 × Vec F S1024x256 .f32 × Vec F S1024x256 .f32
  | 0, hn => stepA V c ⟨0, hn⟩ (Nat.zero_mod _) (fun h => absurd ((Nat.zero_mod 8).symm.trans h) (by decide))
  | n + 1, hn =>
    if h0 : (n + 1) % 8 = 0 then
      if h1 : (n + 1) % 8 = 7 then False.elim (by omega)
      else stepA V c ⟨n + 1, hn⟩ h0 h1
    else
      if h1 : (n + 1) % 8 = 7 then
        stepC V c ⟨n + 1, hn⟩ h0 h1 (outsAt1 c n (Nat.lt_of_succ_lt hn)).2.1 (outsAt1 c n (Nat.lt_of_succ_lt hn)).2.2
      else
        stepB V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = stepA V c t h0 h1 := by
  obtain ⟨n, hn⟩ := t
  cases n with
  | zero => rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region invariant -/

/-- Before the first point: what the launch hands over (both accumulators at anything).  Before a later point: the same
    with each accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

/-- The arrays as the region finds them; after the body each input's buffer at its block and the output's at the
    recursion's first component; the invariant above; nothing owed.  The three arrays the first region wrote are each
    read through two windows (a row-block window and a reduction-step window), which hold one half of the array's share
    each; the last layer's weights and bias are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: each input's memref holds its block; j = t % 8 says which case the point is in; the invariant
    hands over the accumulators (at anything before the first point, at what the point before left afterwards) and takes
    them back at this point's contents; the output block's buffer is handed back untouched except at a last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 8 = 0
  · have h1 : ¬t.val % 8 = 7 := by omega
    rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
    rw [outsAt1_A V c t h0 h1]
    unfold stepA sout1_A_0 sout1_A_1; (try dsimp only)
    by_cases hz : t.val = 0
    · rw [PhiS1_castSucc V c t, PhiS1_zero V c _ _ hz, PhiA1_eq]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS1_castSucc V c t, PhiS1_pos V c _ _ hz]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      iintro ⟨H0, H1, H2, H3, H4, H5, H6, H7, H8, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 8 = 7
    · rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold stepC out1_C_8 sout1_C_0 sout1_C_1; (try dsimp only)
      rw [PhiS1_castSucc V c t, PhiS1_pos V c _ _ hz]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _)
    · rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold stepB sout1_B_0 sout1_B_1; (try dsimp only)
      rw [PhiS1_castSucc V c t, PhiS1_pos V c _ _ hz]
      iintro ⟨⟨⟨R0, R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [R0 R1 R2 R3 R4 R5 R6 R7 R8 R9 R10 R11 HS0 HS1 Hg]
      · isplitl [R0 R1 R2 R3 R4 R5 R6 R7 R8 R9 R10 R11 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back, the accumulators' contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨R0, R1, R2, R3, R4, R5, R6, R7, R8, R9, R10, R11, HS0, HS1⟩, Hg⟩
  isplitl [R0 R1 R2 R3 R4 R5 R6 R7 R8 R9 R10 R11 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    iexists _; iexact HS1
  iexact Hg

end Cert.Kernel.Hand

end
-- ==== Proof.BitsRegion1Shares.lean ====
/- The statements below hold at every instance of the float operations; this module reads them at the instance whose
   floats are machine words. -/
/-
  Entering and leaving the second kernel region.  The region reads each of the three arrays the first region wrote
  through TWO windows (its row-block i and its reduction block j), so the array's full share is dealt to the two windows
  as its two halves on the way in, and the halves — still at the entry contents, an input window never being written
  back — are joined again on the way out.  The output array comes back at what the write-backs leave; every other
  buffer is untouched.
-/
import proofs.«111572_j12214886990221_2_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct buffers behind the region's nine windows, listed. -/
theorem arrBufs1_eq (c : Dev nD) (U : (b : Ref sig .tc) → Buf (Elt F) ((c : Thread nD τ).loc b)) :
    (Pipeline.arrBufs spec1 c U : sProp 𝕄) = iprop((((c : Thread nD τ).loc main_v0_0) ↦{fullShare} U main_v0_0) ∗ (((c : Thread nD τ).loc main_v0_1) ↦{fullShare} U main_v0_1) ∗ (((c : Thread nD τ).loc main_v0_2) ↦{fullShare} U main_v0_2) ∗ (((c : Thread nD τ).loc main_arg9) ↦{fullShare} U main_arg9) ∗ (((c : Thread nD τ).loc main_arg10) ↦{fullShare} U main_arg10) ∗ (((c : Thread nD τ).loc main_v1) ↦{fullShare} U main_v1)) := by
  unfold Pipeline.arrBufs
  exact Idealize.SL.BI.bigSep_eq_bigSepL_of_eq [main_v0_0, main_v0_1, main_v0_2, main_arg9, main_arg10, main_v1] (by decide) (by decide) _

/-- The proof data's windowed arrays, window by window, each at its share. -/
theorem arrays1_eq (c : Dev nD) (G : (w : Fin cfg1.W) → Buf (Elt F) ((cfg1.win w).arr.view.loc (c : Thread nD τ))) :
    ((dat1 V c).arrays G : sProp 𝕄) = iprop((((c : Thread nD τ).loc main_v0_0) ↦{fullShare.left} G 0) ∗ (((c : Thread nD τ).loc main_v0_0) ↦{fullShare.right} G 1) ∗ (((c : Thread nD τ).loc main_v0_1) ↦{fullShare.left} G 2) ∗ (((c : Thread nD τ).loc main_v0_1) ↦{fullShare.right} G 3) ∗ (((c : Thread nD τ).loc main_v0_2) ↦{fullShare.left} G 4) ∗ (((c : Thread nD τ).loc main_v0_2) ↦{fullShare.right} G 5) ∗ (((c : Thread nD τ).loc main_arg9) ↦{fullShare} G 6) ∗ (((c : Thread nD τ).loc main_arg10) ↦{fullShare} G 7) ∗ (((c : Thread nD τ).loc main_v1) ↦{fullShare} G 8)) := by
  have hw : ∀ w : Fin cfg1.W, (cfg1.win w).arr.IsWhole := arr_whole1
  unfold Dat.arrays; rw [bigSep_W1]
  rewrite [(hw 0).set_eq_univ, (hw 2).set_eq_univ, (hw 4).set_eq_univ, (hw 6).set_eq_univ, (hw 7).set_eq_univ, (hw 8).set_eq_univ]
  rfl

/-- An input window's array is never written: after any number of points it holds the entry contents. -/
theorem arrAt1_in (c : Dev nD) (n : ℕ) :
    (dat1 V c).arrAt 0 n = V c (Pipeline.arrRef spec1 0)
    ∧ (dat1 V c).arrAt 1 n = V c (Pipeline.arrRef spec1 1)
    ∧ (dat1 V c).arrAt 2 n = V c (Pipeline.arrRef spec1 2)
    ∧ (dat1 V c).arrAt 3 n = V c (Pipeline.arrRef spec1 3)
    ∧ (dat1 V c).arrAt 4 n = V c (Pipeline.arrRef spec1 4)
    ∧ (dat1 V c).arrAt 5 n = V c (Pipeline.arrRef spec1 5)
    ∧ (dat1 V c).arrAt 6 n = V c (Pipeline.arrRef spec1 6)
    ∧ (dat1 V c).arrAt 7 n = V c (Pipeline.arrRef spec1 7) :=
  ⟨((dat1 V c).arrAt_in 0 rfl _).trans (A_eq1 V c 0),
   ((dat1 V c).arrAt_in 1 rfl _).trans (A_eq1 V c 1),
   ((dat1 V c).arrAt_in 2 rfl _).trans (A_eq1 V c 2),
   ((dat1 V c).arrAt_in 3 rfl _).trans (A_eq1 V c 3),
   ((dat1 V c).arrAt_in 4 rfl _).trans (A_eq1 V c 4),
   ((dat1 V c).arrAt_in 5 rfl _).trans (A_eq1 V c 5),
   ((dat1 V c).arrAt_in 6 rfl _).trans (A_eq1 V c 6),
   ((dat1 V c).arrAt_in 7 rfl _).trans (A_eq1 V c 7)⟩

/-- ENTRY: the core's unscoped buffers at `V c` give the windows' arrays at the entry contents, the three shared arrays
    split in halves, beside the buffers the region does not window. -/
theorem enter1 (c : Dev nD) :
    (unscopedBufs c (V c) : sProp 𝕄) ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.PerCore.unscopedBufs_split₀ (fun _ : Dev nD => cfgs) (1 : Fin 2) c winFacts₀1.arr_unscoped (V c)
  rewrite [hs, arrBufs1_eq, arrays1_eq]
  iintro ⟨⟨H0, H1, H2, H9, H10, Hv⟩, Hrest⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  ihave H2' := (pointsTo_share (PosShare.mem_left_op_right fullShare)).1 $$ H2
  icases H2' with ⟨H2l, H2r⟩
  isplitr [Hrest]
  · isplitl [H0l]; · iexact H0l
    isplitl [H0r]; · iexact H0r
    isplitl [H1l]; · iexact H1l
    isplitl [H1r]; · iexact H1r
    isplitl [H2l]; · iexact H2l
    isplitl [H2r]; · iexact H2r
    isplitl [H9]; · iexact H9
    isplitl [H10]; · iexact H10
    iexact Hv
  iexact Hrest

/-- EXIT: the windows' arrays after all the points — the inputs still at the entry contents, the output at what the
    write-backs leave — and the other buffers make the core's unscoped buffers at any valuation `U` that is `V c` with the
    output array replaced. -/
theorem exit1 (c : Dev nD) (U : (b : Ref sig .tc) → Buf (Elt F) ((c : Thread nD τ).loc b))
    (hout : U main_v1 = (dat1 V c).arrAt 8 cfg1.N) (hrest : ∀ b, b ≠ main_v1 → U b = V c b) :
    iprop((dat1 V c).arrays ((dat1 V c).arrAt · cfg1.N) ∗ Pipeline.unscopedRest spec1 c (V c)) ⊢ (unscopedBufs c U : sProp 𝕄) := by
  have hs : (unscopedBufs c U : sProp 𝕄) = iprop(Pipeline.arrBufs spec1 c U ∗ Pipeline.unscopedRest spec1 c U) :=
    Pipeline.PerCore.unscopedBufs_split₀ (fun _ : Dev nD => cfgs) (1 : Fin 2) c winFacts₀1.arr_unscoped U
  have hR : (Pipeline.unscopedRest spec1 c U : sProp 𝕄) = Pipeline.unscopedRest spec1 c (V c) := by
    unfold Pipeline.unscopedRest
    exact bigSep_congr fun b hb => by
      rw [hrest b (fun e => (Finset.mem_sdiff.mp hb).2 (Finset.mem_image.mpr ⟨8, Finset.mem_univ _, by subst e; rfl⟩))]
  rewrite [hs, hR, arrBufs1_eq, arrays1_eq]
  obtain ⟨e0, e1, e2, e3, e4, e5, e6, e7⟩ := arrAt1_in V c cfg1.N
  have g0 : U main_v0_0 = V c main_v0_0 := hrest main_v0_0 (by decide)
  have g1 : U main_v0_1 = V c main_v0_1 := hrest main_v0_1 (by decide)
  have g2 : U main_v0_2 = V c main_v0_2 := hrest main_v0_2 (by decide)
  have g3 : U main_arg9 = V c main_arg9 := hrest main_arg9 (by decide)
  have g4 : U main_arg10 = V c main_arg10 := hrest main_arg10 (by decide)
  rewrite [hout, g0, g1, g2, g3, g4]
  dsimp only
  rewrite [e0, e1, e2, e3, e4, e5, e6, e7]
  iintro ⟨⟨H0l, H0r, H1l, H1r, H2l, H2r, H9, H10, Hv⟩, Hrest⟩
  ihave H0 := (pointsTo_share (PosShare.mem_left_op_right fullShare)).2 $$ [H0l H0r]
  · isplitl [H0l]; · iexact H0l
    iexact H0r
  ihave H1 := (pointsTo_share (PosShare.mem_left_op_right fullShare)).2 $$ [H1l H1r]
  · isplitl [H1l]; · iexact H1l
    iexact H1r
  ihave H2 := (pointsTo_share (PosShare.mem_left_op_right fullShare)).2 $$ [H2l H2r]
  · isplitl [H2l]; · iexact H2l
    iexact H2r
  isplitr [Hrest]
  · isplitl [H0]; · iexact H0
    isplitl [H1]; · iexact H1
    isplitl [H2]; · iexact H2
    isplitl [H9]; · iexact H9
    isplitl [H10]; · iexact H10
    iexact Hv
  iexact Hrest

end Cert.Kernel.Hand

end
-- ==== Proof.BitsRun.lean ====
/- The statements below hold at every instance of the float operations; this module reads them at the instance whose
   floats are machine words. -/
/-
  The whole program as two kernel regions in sequence, and what every unscoped buffer holds at the end.  The buffer
  contents are followed through the program: as launched; after the first region (its three output arrays at what its
  write-backs leave, everything else untouched); after the second region (the result array at what ITS write-backs leave).
  Each region is entered from the thread state "every unscoped buffer at the current contents, the generator register at
  some state, nothing owed" and left at the same state over the next contents.  Every argument array is read by the regions
  only through input windows, or not at all, so it ends as launched.
-/
import proofs.«111572_j12214886990221_2_alg».proof.Proof.BitsRegion0
import proofs.«111572_j12214886990221_2_alg».proof.Proof.BitsRegion1Shares
import proofs.«111572_j12214886990221_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: the result array at what its pipeline leaves, every other buffer as after the first. -/
def W2 (c : Dev nD) : Valuation τ sig (Elt F) :=
  Function.update (W1 m c) (Proc.devRef .tc main_v1) ((dat1 (V1 m) c).arrAt 8 cfg1.N)
theorem W2_out (c : Dev nD) : W2 m c (Proc.devRef .tc main_v1) = (dat1 (V1 m) c).arrAt 8 cfg1.N := by
  unfold W2; exact Function.update_self _ _ _
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b

/-! ### The arguments end as launched -/

theorem W2_main_arg0 (c : Dev nD) : W2 m c (Proc.devRef .tc main_arg0) = m ((c : Thread nD τ).loc main_arg0) :=
  (W2_of_ne m c main_arg0 (by decide)).trans <| (W1_of_ne m c main_arg0 (by decide)).trans rfl
theorem W2_main_arg1 (c : Dev nD) : W2 m c (Proc.devRef .tc main_arg1) = m ((c : Thread nD τ).loc main_arg1) :=
  (W2_of_ne m c main_arg1 (by decide)).trans <| (W1_of_ne m c main_arg1 (by decide)).trans rfl
theorem W2_main_arg2 (c : Dev nD) : W2 m c (Proc.devRef .tc main_arg2) = m ((c : Thread nD τ).loc main_arg2) :=
  (W2_of_ne m c main_arg2 (by decide)).trans <| (W1_of_ne m c main_arg2 (by decide)).trans rfl
theorem W2_main_arg3 (c : Dev nD) : W2 m c (Proc.devRef .tc main_arg3) = m ((c : Thread nD τ).loc main_arg3) :=
  (W2_of_ne m c main_arg3 (by decide)).trans <| (W1_arr m c 0).trans (((dat0 (V0 m) c).arrAt_in 0 rfl _).trans (A_eq0 (V0 m) c 0))
theorem W2_main_arg4 (c : Dev nD) : W2 m c (Proc.devRef .tc main_arg4) = m ((c : Thread nD τ).loc main_arg4) :=
  (W2_of_ne m c main_arg4 (by decide)).trans <| (W1_of_ne m c main_arg4 (by decide)).trans rfl
theorem W2_main_arg5 (c : Dev nD) : W2 m c (Proc.devRef .tc main_arg5) = m ((c : Thread nD τ).loc main_arg5) :=
  (W2_of_ne m c main_arg5 (by decide)).trans <| (W1_arr m c 1).trans (((dat0 (V0 m) c).arrAt_in 1 rfl _).trans (A_eq0 (V0 m) c 1))
theorem W2_main_arg6 (c : Dev nD) : W2 m c (Proc.devRef .tc main_arg6) = m ((c : Thread nD τ).loc main_arg6) :=
  (W2_of_ne m c main_arg6 (by decide)).trans <| (W1_arr m c 2).trans (((dat0 (V0 m) c).arrAt_in 2 rfl _).trans (A_eq0 (V0 m) c 2))
theorem W2_main_arg7 (c : Dev nD) : W2 m c (Proc.devRef .tc main_arg7) = m ((c : Thread nD τ).loc main_arg7) :=
  (W2_of_ne m c main_arg7 (by decide)).trans <| (W1_arr m c 3).trans (((dat0 (V0 m) c).arrAt_in 3 rfl _).trans (A_eq0 (V0 m) c 3))
theorem W2_main_arg8 (c : Dev nD) : W2 m c (Proc.devRef .tc main_arg8) = m ((c : Thread nD τ).loc main_arg8) :=
  (W2_of_ne m c main_arg8 (by decide)).trans <| (W1_arr m c 4).trans (((dat0 (V0 m) c).arrAt_in 4 rfl _).trans (A_eq0 (V0 m) c 4))
theorem W2_main_arg9 (c : Dev nD) : W2 m c (Proc.devRef .tc main_arg9) = m ((c : Thread nD τ).loc main_arg9) :=
  (W2_of_ne m c main_arg9 (by decide)).trans <| (W1_of_ne m c main_arg9 (by decide)).trans rfl
theorem W2_main_arg10 (c : Dev nD) : W2 m c (Proc.devRef .tc main_arg10) = m ((c : Thread nD τ).loc main_arg10) :=
  (W2_of_ne m c main_arg10 (by decide)).trans <| (W1_of_ne m c main_arg10 (by decide)).trans rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The two regions as segments -/

set_option backward.isDefEq.respectTransparency.types false in
/-- The first region: its eight arrays (all distinct) split out of the unscoped buffers on entry and put back at the exit
    contents; the generator register into the region invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: three of its arrays are each behind two windows, so the arrays are dealt to the windows by halves on
    entry and joined again on exit; otherwise as the first region, its invariant carrying the two accumulators. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := enter1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V1 m) c)
    unfold Pipeline.ΦA
    iintro ⟨Hp, -, Hr⟩
    isplitl [Hr]; · iexact Hr
    iexact Hp
  hout c := by
    refine (hout1 (V1 m) c).trans ?_
    rw [Pipeline.ownSems0_none]; unfold Pipeline.ΦA
    iintro ⟨Hr, Hp⟩
    isplitl [Hp]; · iexact Hp
    isplitr; · iempintro
    iexact Hr
  hexit c := by
    have hjoin := exit1 (V1 m) c (V2 m c) (W2_out m c) (fun b hb => W2_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as the two segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of the program on the TensorCores terminates, nothing
    faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c),
     (h c _ (mem_uc main_arg8 (by decide))).trans (W2_main_arg8 m c),
     (h c _ (mem_uc main_arg9 (by decide))).trans (W2_main_arg9 m c),
     (h c _ (mem_uc main_arg10 (by decide))).trans (W2_main_arg10 m c)⟩) (run_main m ρ)

/-- The same run with the result array named: what the second region's write-backs leave. -/
theorem run_result : θ_run defs (onTc (τ := τ) (main (F := F))) ⟨m, fun _ => 0, ρ⟩ (fun r => ∀ c : Dev nD,
      r.2.mem ((c.tc : Thread nD τ).loc main_v1) = (dat1 (V1 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v1 (by decide))).trans (W2_out m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c),
     (h c _ (mem_uc main_arg8 (by decide))).trans (W2_main_arg8 m c),
     (h c _ (mem_uc main_arg9 (by decide))).trans (W2_main_arg9 m c),
     (h c _ (mem_uc main_arg10 (by decide))).trans (W2_main_arg10 m c)⟩) (run_main m ρ)

end Cert.Kernel.Hand

end
-- ==== Proof.Spec.lean ====
/-
  The function both programs compute, stated once over plain index types, in the two arrangements the two
  programs use.  With x : [8192,256], W1, W2 : [256,256], b1, b2 : [256], W3 : [768,256], b3 : [256] and
  z the value of the float word +0.0:

    e_s[i,d]   = max (Σ_k x[i,k]·W_s[k,d] + b_s[d]) z                    (s = 1, 2)
    sim_s[i,k] = (Σ_d e_s[i,d]·e_s[k,d]) scaled by 1/256
    agg_s[i,c] = Σ_k sim_s[i,k]·x[k,c]
    out[i,c]   = max (Σ_{k<768} [x | agg_1 | agg_2][i,k]·W3[k,c] + b3[c]) z

  The tiled arrangement scales by multiplying with the word of 1/256, accumulates agg_s over eight blocks of
  1024 rows starting from z, and splits the last contraction into its three stretches of 256; the plain
  arrangement divides by the word of 256 and sums each contraction whole.
-/
import Idealize.ShloMosaic.PureOps.Ideal
import Mathlib.Algebra.BigOperators.Fin

noncomputable section

namespace Cert.Spec

open Idealize.ShloMosaic

/-- The value of the float word `+0.0`. -/
abbrev z : EReal := Ideal.ofBits .f32 0x00000000#32
/-- The value of the float word the tiled arrangement multiplies by (2⁻⁸). -/
abbrev cInv : EReal := Ideal.ofBits .f32 0x3B800000#32
/-- The value of the float word the plain arrangement divides by (256). -/
abbrev c256 : EReal := Ideal.ofBits .f32 0x43800000#32

/-- One linear layer followed by the clamp at zero: `max (Σ_k x[i,k]·W[k,d] + b[d]) z`. -/
def lin {n : Nat} (x : Fin n → Fin 256 → EReal) (W : Fin 256 → Fin 256 → EReal) (b : Fin 256 → EReal)
    (i : Fin n) (d : Fin 256) : EReal :=
  max ((∑ k : Fin 256, x i k * W k d) + b d) z

/-- The Gram entry of rows `i` and `k` of `e`: `Σ_d e[i,d]·e[k,d]`. -/
def gram {n n' : Nat} (e : Fin n → Fin 256 → EReal) (e' : Fin n' → Fin 256 → EReal) (i : Fin n) (k : Fin n') : EReal :=
  ∑ d : Fin 256, e i d * e' k d

/-- The similarity the tiled arrangement uses: the Gram entry times the word of 1/256. -/
def simT (e : Fin 8192 → Fin 256 → EReal) (i k : Fin 8192) : EReal := gram e e i k * cInv
/-- The similarity the plain arrangement uses: the Gram entry divided by the word of 256. -/
def simP (e : Fin 8192 → Fin 256 → EReal) (i k : Fin 8192) : EReal := Ideal.div (gram e e i k) c256

/-- Row `1024·j + r` of an array of 8192 rows. -/
def row (j : Fin 8) (r : Fin 1024) : Fin 8192 := ⟨1024 * j.val + r.val, by omega⟩

/-- One block's contribution to the aggregate: `Σ_{r<1024} sim[i, 1024 j + r]·x[1024 j + r, c]`. -/
def blockT (sim : Fin 8192 → Fin 8192 → EReal) (x : Fin 8192 → Fin 256 → EReal) (j : Fin 8) (i : Fin 8192) (c : Fin 256) : EReal :=
  ∑ r : Fin 1024, sim i (row j r) * x (row j r) c

/-- The running total after blocks `0 … n` (clamped at the last block): it starts from `z` at block 0 and adds one
    block at a time. -/
def accT (sim : Fin 8192 → Fin 8192 → EReal) (x : Fin 8192 → Fin 256 → EReal) (i : Fin 8192) (c : Fin 256) : Nat → EReal
  | 0 => z + blockT sim x ⟨0, by omega⟩ i c
  | n + 1 => accT sim x i c n + (if h : n + 1 < 8 then blockT sim x ⟨n + 1, h⟩ i c else 0)

/-- The aggregate as the tiled arrangement has it: the running total after all eight blocks. -/
def aggT (sim : Fin 8192 → Fin 8192 → EReal) (x : Fin 8192 → Fin 256 → EReal) (i : Fin 8192) (c : Fin 256) : EReal :=
  accT sim x i c 7
/-- The aggregate as the plain arrangement has it: one sum over all 8192 rows. -/
def aggP (sim : Fin 8192 → Fin 8192 → EReal) (x : Fin 8192 → Fin 256 → EReal) (i : Fin 8192) (c : Fin 256) : EReal :=
  ∑ k : Fin 8192, sim i k * x k c

/-- Rows `256·s + d` of the last weight matrix (s = 0, 1, 2). -/
def w3row (s : Fin 3) (d : Fin 256) : Fin 768 := ⟨256 * s.val + d.val, by omega⟩

/-- The last layer as the tiled arrangement has it: three contractions of 256, added left to right, then the bias and
    the clamp. -/
def outT (x a1 a2 : Fin 8192 → Fin 256 → EReal) (W3 : Fin 768 → Fin 256 → EReal) (b3 : Fin 256 → EReal)
    (i : Fin 8192) (c : Fin 256) : EReal :=
  max (((∑ d : Fin 256, x i d * W3 (w3row 0 d) c) + (∑ d : Fin 256, a1 i d * W3 (w3row 1 d) c)
      + (∑ d : Fin 256, a2 i d * W3 (w3row 2 d) c)) + b3 c) z

/-- Column `k` of the three arrays joined side by side. -/
def cat3 (x a1 a2 : Fin 8192 → Fin 256 → EReal) (i : Fin 8192) (k : Fin 768) : EReal :=
  if h : k.val < 256 then x i ⟨k.val, h⟩
  else if h' : k.val < 512 then a1 i ⟨k.val - 256, by omega⟩
  else a2 i ⟨k.val - 512, by omega⟩

/-- The last layer as the plain arrangement has it: one contraction over the 768 joined columns. -/
def outP (x a1 a2 : Fin 8192 → Fin 256 → EReal) (W3 : Fin 768 → Fin 256 → EReal) (b3 : Fin 256 → EReal)
    (i : Fin 8192) (c : Fin 256) : EReal :=
  max ((∑ k : Fin 768, cat3 x a1 a2 i k * W3 k c) + b3 c) z

/-- The whole function in the tiled arrangement. -/
def wholeT (x : Fin 8192 → Fin 256 → EReal) (W1 : Fin 256 → Fin 256 → EReal) (b1 : Fin 256 → EReal)
    (W2 : Fin 256 → Fin 256 → EReal) (b2 : Fin 256 → EReal) (W3 : Fin 768 → Fin 256 → EReal) (b3 : Fin 256 → EReal) :
    Fin 8192 → Fin 256 → EReal :=
  outT x (aggT (simT (lin x W1 b1)) x) (aggT (simT (lin x W2 b2)) x) W3 b3

/-- The whole function in the plain arrangement. -/
def wholeP (x : Fin 8192 → Fin 256 → EReal) (W1 : Fin 256 → Fin 256 → EReal) (b1 : Fin 256 → EReal)
    (W2 : Fin 256 → Fin 256 → EReal) (b2 : Fin 256 → EReal) (W3 : Fin 768 → Fin 256 → EReal) (b3 : Fin 256 → EReal) :
    Fin 8192 → Fin 256 → EReal :=
  outP x (aggP (simP (lin x W1 b1)) x) (aggP (simP (lin x W2 b2)) x) W3 b3

end Cert.Spec

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibRowBlock.lean ====
/-
  General facts about row blocks, at the ideal values.  A matrix product's entry (r, j) is the sum over k of A(r,k)·B(k,j):
  it needs one row of the left operand, so a block of rows times a matrix is that block of rows of the whole product.
  And a length-n vector written as one row and repeated down the rows reads, at (r, j), its entry j — whether the
  repeating is a kernel's shape cast and broadcast or the host's two broadcasts.  Nothing here mentions a program.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.RowBlockLib

open Idealize.ShloMosaic Idealize.ShloMosaic.ValueIdx Idealize.ShloMosaic.Pipeline

/-- Row a of a block of rows times a matrix is row a' of the whole matrix times it, when the block's row a is the whole
    matrix's row a'. -/
theorem dotGeneral_plain_row {M m k n : Nat} {φ₁ φ₁' φ₂ φ₂' : FTy} (prec prec' : Option ContractPrecision)
    (A : FVec Ideal ⟨2, ![M, k]⟩ φ₁) (Ab : FVec Ideal ⟨2, ![m, k]⟩ φ₁') (B : FVec Ideal ⟨2, ![k, n]⟩ φ₂) (Bb : FVec Ideal ⟨2, ![k, n]⟩ φ₂')
    (a : Fin m) (a' : Fin M) (b : Fin n)
    (hA : ∀ c : Fin k, (Ab (ix2 a c) : EReal) = A (ix2 a' c)) (hB : ∀ c : Fin k, (Bb (ix2 c b) : EReal) = B (ix2 c b)) :
    (Host.dotGeneral (DotDims.plain m k n) prec Ab Bb (ix2 a b) : EReal) = Host.dotGeneral (DotDims.plain M k n) prec' A B (ix2 a' b) := by
  rw [StackMember.dotGeneral_plain_apply, StackMember.dotGeneral_plain_apply]
  exact Finset.sum_congr rfl fun c _ => by rw [hA c, hB c]

/-- A length-n vector stored as one row and broadcast down m rows reads, at (p, j), the vector's entry j. -/
theorem bias_rows_apply {α : Type} {m n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (j : Fin n) :
    broadcastTo ⟨2, ![m, n]⟩ (shapeCast ⟨2, ![1, n]⟩ v h1) h2 (ix2 p j) = v (ix1 j) := by
  refine (broadcastTo_apply _ h2 (ix2 p j) (ix2 (0 : Fin 1) j) fun ax => ?_).trans ?_
  · match ax with
    | ⟨0, _⟩ => show (0 : Nat) = if (1 : Nat) = 1 then 0 else p.val; rw [if_pos rfl]
    | ⟨1, _⟩ => show j.val = if n = 1 then 0 else j.val; rw [if_neg hn]
  · refine (shapeCast_addUnit_apply ![n] v h1 (ix2 (0 : Fin 1) j)).trans (congrArg v (funext fun a => ?_))
    match a with
    | ⟨0, _⟩ => rfl

/-- The same read of the host's two broadcasts ([n] to [1, n] along axis 1, then to [M, n]). -/
theorem bias_rows_host_apply {α : Type} {M n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![M, n]⟩ ![0, 1])
    (r : Fin M) (j : Fin n) :
    broadcastInDim ⟨2, ![M, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else r.val; rw [if_pos rfl]
    | ⟨1, _⟩ => show j.val = if n = 1 then 0 else j.val; rw [if_neg hn]
  · match a with
    | ⟨0, _⟩ => show j.val = if n = 1 then 0 else j.val; rw [if_neg hn]

end Cert.RowBlockLib

end
-- ==== Proof.Region0Value.lean ====
/- Region 0's values at the ideal instance: what each of the three output arrays holds when the region ends, index by
   index — the two linear layers of the whole input array and the input array itself —, from the body's payloads at an
   index and the fact that the eight blocks of 1024 rows tile the 8192 rows. -/
import proofs.«111572_j12214886990221_2_alg».proof.Proof.Region0
import proofs.«111572_j12214886990221_2_alg».proof.Proof.Spec
import proofs.«111572_j12214886990221_2_alg».proof.Proof.LibRowOps
import proofs.«111572_j12214886990221_2_alg».proof.Proof.LibRowBlock
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's payloads at an index -/

/-- Rounding to bf16 is the identity on the ideal values: the third output's payload is the row block itself. -/
theorem k0_pay1_apply (x : Vec Ideal S1024x256 .f32) (j : S1024x256.Idx) :
    (k0_pay1 (F := Ideal) x j : EReal) = x j := by
  unfold k0_pay1
  exact truncf_apply x bitsLt_bf16_f32 j

/-- The first linear layer's payload at row `r`, column `q` of the block: the row of `x` against the column of the
    weights, plus the bias at `q`, clamped at the value of the zero word. -/
theorem k0_pay2_apply (x : Vec Ideal S1024x256 .f32) (w : Vec Ideal S256x256 .f32) (b : Vec Ideal S256 .f32)
    (r : Fin 1024) (q : Fin 256) :
    (k0_pay2 (F := Ideal) x w b (ix2 r q) : EReal)
      = max ((∑ k : Fin 256, x (ix2 r k) * w (ix2 k q)) + b (ix1 q)) Cert.Spec.z := by
  unfold k0_pay2 k0_pay1
  rw [truncf_apply, maximumf_apply, addf_apply, broadcast_apply]
  rw [Cert.RowLib.dotDims_eq_plain dot_S1024x256_S256x256_S1024x256_1_0_0_1_n_n rfl rfl rfl rfl rfl rfl]
  rw [Cert.RowLib.matmul_plain_zero_ix2, Cert.RowBlockLib.bias_rows_apply (by decide)]
  rfl

/-- The second linear layer's payload, likewise. -/
theorem k0_pay3_apply (x : Vec Ideal S1024x256 .f32) (w : Vec Ideal S256x256 .f32) (b : Vec Ideal S256 .f32)
    (r : Fin 1024) (q : Fin 256) :
    (k0_pay3 (F := Ideal) x w b (ix2 r q) : EReal)
      = max ((∑ k : Fin 256, x (ix2 r k) * w (ix2 k q)) + b (ix1 q)) Cert.Spec.z := by
  unfold k0_pay3 k0_pay1
  rw [truncf_apply, maximumf_apply, addf_apply, broadcast_apply]
  rw [Cert.RowLib.dotDims_eq_plain dot_S1024x256_S256x256_S1024x256_1_0_0_1_n_n rfl rfl rfl rfl rfl rfl]
  rw [Cert.RowLib.matmul_plain_zero_ix2, Cert.RowBlockLib.bias_rows_apply (by decide)]
  rfl

/-! ## Where each window's block sits in its array -/

-- the TensorCore's buffer contents when the region is entered, at the ideal values
variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

/-- The printed index maps, decided over the eight grid points: the row-block windows (the input `x` and the three
    outputs) sit at block `t` of the rows and block 0 of the columns; the weights and biases sit at block 0 always. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The grid has eight points, as a bound `omega` can use. -/
theorem t_lt8 (t : Fin cfg0.N) : t.val < 8 := by
  have h : t.val < grid0.N := t.isLt
  rw [N_0] at h; exact h

/-- Row `r`, column `k` of the input's block at point `t` is row `1024 t + r` of the whole input. -/
theorem iblk0_0_apply (c : Dev nD) (t : Fin cfg0.N) (r : Fin 1024) (k : Fin 256) (p : Fin 8192) (hp : p.val = 1024 * t.val + r.val) :
    (iblk0 V c 0 t (ix2 r k) : EReal) = V c main_arg3 (ix2 p k) := by
  obtain ⟨e0, e1, -⟩ := block_index0 t
  show V c main_arg3 (((cfg0.win 0).blk t).view.emb (ix2 r k)) = V c main_arg3 (ix2 p k)
  refine congrArg (V c main_arg3) (funext fun a => Fin.ext ?_)
  match a with
  | ⟨0, _⟩ => show win0_0.index t (0 : Fin 2) * 1024 + 1 * r.val = p.val; omega
  | ⟨1, _⟩ => show win0_0.index t (1 : Fin 2) * 256 + 1 * k.val = k.val; omega

/-- The first weight matrix's block is the whole matrix at every point. -/
theorem iblk0_1_apply (c : Dev nD) (t : Fin cfg0.N) (k : Fin 256) (q : Fin 256) :
    (iblk0 V c 1 t (ix2 k q) : EReal) = V c main_arg5 (ix2 k q) := by
  obtain ⟨-, -, e0, e1, -⟩ := block_index0 t
  show V c main_arg5 (((cfg0.win 1).blk t).view.emb (ix2 k q)) = V c main_arg5 (ix2 k q)
  refine congrArg (V c main_arg5) (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- The first bias's block is the whole vector at every point. -/
theorem iblk0_2_apply (c : Dev nD) (t : Fin cfg0.N) (q : Fin 256) :
    (iblk0 V c 2 t (ix1 q) : EReal) = V c main_arg6 (ix1 q) := by
  obtain ⟨-, -, -, -, e0, -⟩ := block_index0 t
  show V c main_arg6 (((cfg0.win 2).blk t).view.emb (ix1 q)) = V c main_arg6 (ix1 q)
  refine congrArg (V c main_arg6) (funext fun a => Fin.ext ?_)
  match a with
  | ⟨0, _⟩ => show win0_2.index t (0 : Fin 1) * 256 + 1 * q.val = q.val; omega

/-- The second weight matrix's block is the whole matrix at every point. -/
theorem iblk0_3_apply (c : Dev nD) (t : Fin cfg0.N) (k : Fin 256) (q : Fin 256) :
    (iblk0 V c 3 t (ix2 k q) : EReal) = V c main_arg7 (ix2 k q) := by
  obtain ⟨-, -, -, -, -, e0, e1, -⟩ := block_index0 t
  show V c main_arg7 (((cfg0.win 3).blk t).view.emb (ix2 k q)) = V c main_arg7 (ix2 k q)
  refine congrArg (V c main_arg7) (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- The second bias's block is the whole vector at every point. -/
theorem iblk0_4_apply (c : Dev nD) (t : Fin cfg0.N) (q : Fin 256) :
    (iblk0 V c 4 t (ix1 q) : EReal) = V c main_arg8 (ix1 q) := by
  obtain ⟨-, -, -, -, -, -, -, e0, -⟩ := block_index0 t
  show V c main_arg8 (((cfg0.win 4).blk t).view.emb (ix1 q)) = V c main_arg8 (ix1 q)
  refine congrArg (V c main_arg8) (funext fun a => Fin.ext ?_)
  match a with
  | ⟨0, _⟩ => show win0_4.index t (0 : Fin 1) * 256 + 1 * q.val = q.val; omega

/-! ## Output window 5: the first linear layer of the whole input -/

/-- The first linear layer of the whole input array, index by index. -/
abbrev lin1_arr (c : Dev nD) : S8192x256.Idx → EReal := fun i =>
  Cert.Spec.lin (fun a b => V c main_arg3 (ix2 a b)) (fun a b => V c main_arg5 (ix2 a b)) (fun a => V c main_arg6 (ix1 a))
    (⟨(i 0).val, idx2_lt0 i⟩ : Fin 8192) (⟨(i 1).val, idx2_lt1 i⟩ : Fin 256)

/-- What point `t` writes back to output window 5 is block `t` of that function of the whole arrays. -/
theorem writeback0_5 (c : Dev nD) (t : Fin cfg0.N) :
    (dat0 (F := Ideal) V c).flushed 5 t = ((cfg0.win 5).blk t).view.read (Elt Ideal) (lin1_arr V c) := by
  show (cfg0.win 5).cut (grid0.coords t) ((dat0 (F := Ideal) V c).after 5 t) = _
  rw [after0_5]
  unfold out0_5
  rw [View.canon_unit_zero off2_zero]
  simp only [View.ld_unit_zero (S := S1024x256) off2_zero, View.ld_unit_zero (S := S256x256) off2_zero, View.ld_unit_zero (S := S256) off1_zero]
  obtain ⟨-, -, -, -, -, -, -, -, e0, e1, -⟩ := block_index0 t
  have ht := t_lt8 t
  funext j
  obtain ⟨r, q, rfl⟩ : ∃ (r : Fin 1024) (q : Fin 256), j = ix2 r q := ⟨j 0, j 1, eq_ix2 j⟩
  have hrow : 1024 * t.val + r.val < 8192 := by have := r.isLt; omega
  refine (k0_pay2_apply _ _ _ r q).trans ?_
  have hemb : ((cfg0.win 5).blk t).view.emb (ix2 r q) = (ix2 (⟨1024 * t.val + r.val, hrow⟩ : Fin 8192) q : S8192x256.Idx) := by
    funext a; apply Fin.ext
    match a with
    | ⟨0, _⟩ => show win0_5.index t (0 : Fin 2) * 1024 + 1 * r.val = 1024 * t.val + r.val; omega
    | ⟨1, _⟩ => show win0_5.index t (1 : Fin 2) * 256 + 1 * q.val = q.val; omega
  show _ = lin1_arr V c (((cfg0.win 5).blk t).view.emb (ix2 r q))
  rw [hemb]
  show _ = Cert.Spec.lin (fun a b => V c main_arg3 (ix2 a b)) (fun a b => V c main_arg5 (ix2 a b)) (fun a => V c main_arg6 (ix1 a)) (⟨1024 * t.val + r.val, hrow⟩ : Fin 8192) q
  unfold Cert.Spec.lin
  rw [iblk0_2_apply V c t q]
  congr 1; congr 1
  refine Finset.sum_congr rfl fun k _ => ?_
  rw [iblk0_0_apply V c t r k ⟨1024 * t.val + r.val, hrow⟩ rfl, iblk0_1_apply V c t k q]

/-- An index of window 5's array is in point `t`'s block iff each coordinate is in the block's range on its axis. -/
theorem mem_rows0_5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0_0).slice (win0_5.rect t)).set ↔ _
  rw [View.set_slice_whole, Rect.mem_set_unit]
  exact Iff.rfl

/-- The eight blocks of 1024 rows tile the 8192 rows: row `i` is in the block of point `i / 1024`. -/
theorem rows_tiled0_5 (i : S8192x256.Idx) : ∃ t : Fin cfg0.N, (cfg0.win 5).flush t = true ∧ i ∈ ((cfg0.win 5).blk t).view.set := by
  have hi0 : (i 0).val < 8192 := idx2_lt0 i
  have hi1 : (i 1).val < 256 := idx2_lt1 i
  have hN : (i 0).val / 1024 < grid0.N := by rw [N_0]; omega
  refine ⟨(⟨(i 0).val / 1024, hN⟩ : Fin grid0.N), flush0_5 _, ?_⟩
  obtain ⟨-, -, -, -, -, -, -, -, e0, e1, -⟩ := block_index0 (⟨(i 0).val / 1024, hN⟩ : Fin grid0.N)
  rw [mem_rows0_5]
  intro a
  match a with
  | ⟨0, _⟩ =>
    show win0_5.index (⟨(i 0).val / 1024, hN⟩ : Fin grid0.N) (0 : Fin 2) * 1024 ≤ (i 0).val ∧ (i 0).val < win0_5.index (⟨(i 0).val / 1024, hN⟩ : Fin grid0.N) (0 : Fin 2) * 1024 + 1024
    rw [e0]; show (i 0).val / 1024 * 1024 ≤ (i 0).val ∧ (i 0).val < (i 0).val / 1024 * 1024 + 1024; omega
  | ⟨1, _⟩ =>
    show win0_5.index (⟨(i 0).val / 1024, hN⟩ : Fin grid0.N) (1 : Fin 2) * 256 ≤ (i 1).val ∧ (i 1).val < win0_5.index (⟨(i 0).val / 1024, hN⟩ : Fin grid0.N) (1 : Fin 2) * 256 + 256
    rw [e1]; omega

/-- The first output array when the region ends: the first linear layer of the whole input, at every index. -/
theorem final0_5 (c : Dev nD) (p : Fin 8192) (d : Fin 256) :
    ((dat0 (F := Ideal) V c).arrAt 5 cfg0.N : S8192x256.Idx → EReal) (ix2 p d)
      = Cert.Spec.lin (fun a b => V c main_arg3 (ix2 a b)) (fun a b => V c main_arg5 (ix2 a b)) (fun a => V c main_arg6 (ix1 a)) p d := by
  rw [(dat0 (F := Ideal) V c).arrAt_eq_of_cover 5 (lin1_arr V c) (fun t _ => writeback0_5 V c t) rows_tiled0_5]

/-! ## Output window 6: the second linear layer of the whole input -/

/-- The second linear layer of the whole input array, index by index. -/
abbrev lin2_arr (c : Dev nD) : S8192x256.Idx → EReal := fun i =>
  Cert.Spec.lin (fun a b => V c main_arg3 (ix2 a b)) (fun a b => V c main_arg7 (ix2 a b)) (fun a => V c main_arg8 (ix1 a))
    (⟨(i 0).val, idx2_lt0 i⟩ : Fin 8192) (⟨(i 1).val, idx2_lt1 i⟩ : Fin 256)

/-- What point `t` writes back to output window 6 is block `t` of that function of the whole arrays. -/
theorem writeback0_6 (c : Dev nD) (t : Fin cfg0.N) :
    (dat0 (F := Ideal) V c).flushed 6 t = ((cfg0.win 6).blk t).view.read (Elt Ideal) (lin2_arr V c) := by
  show (cfg0.win 6).cut (grid0.coords t) ((dat0 (F := Ideal) V c).after 6 t) = _
  rw [after0_6]
  unfold out0_6
  rw [View.canon_unit_zero off2_zero]
  simp only [View.ld_unit_zero (S := S1024x256) off2_zero, View.ld_unit_zero (S := S256x256) off2_zero, View.ld_unit_zero (S := S256) off1_zero]
  obtain ⟨-, -, -, -, -, -, -, -, -, -, e0, e1, -⟩ := block_index0 t
  have ht := t_lt8 t
  funext j
  obtain ⟨r, q, rfl⟩ : ∃ (r : Fin 1024) (q : Fin 256), j = ix2 r q := ⟨j 0, j 1, eq_ix2 j⟩
  have hrow : 1024 * t.val + r.val < 8192 := by have := r.isLt; omega
  refine (k0_pay3_apply _ _ _ r q).trans ?_
  have hemb : ((cfg0.win 6).blk t).view.emb (ix2 r q) = (ix2 (⟨1024 * t.val + r.val, hrow⟩ : Fin 8192) q : S8192x256.Idx) := by
    funext a; apply Fin.ext
    match a with
    | ⟨0, _⟩ => show win0_6.index t (0 : Fin 2) * 1024 + 1 * r.val = 1024 * t.val + r.val; omega
    | ⟨1, _⟩ => show win0_6.index t (1 : Fin 2) * 256 + 1 * q.val = q.val; omega
  show _ = lin2_arr V c (((cfg0.win 6).blk t).view.emb (ix2 r q))
  rw [hemb]
  show _ = Cert.Spec.lin (fun a b => V c main_arg3 (ix2 a b)) (fun a b => V c main_arg7 (ix2 a b)) (fun a => V c main_arg8 (ix1 a)) (⟨1024 * t.val + r.val, hrow⟩ : Fin 8192) q
  unfold Cert.Spec.lin
  rw [iblk0_4_apply V c t q]
  congr 1; congr 1
  refine Finset.sum_congr rfl fun k _ => ?_
  rw [iblk0_0_apply V c t r k ⟨1024 * t.val + r.val, hrow⟩ rfl, iblk0_3_apply V c t k q]

/-- An index of window 6's array is in point `t`'s block iff each coordinate is in the block's range on its axis. -/
theorem mem_rows0_6 (t : Fin cfg0.N) (i : S8192x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_1).slice (win0_6.rect t)).set ↔ _
  rw [View.set_slice_whole, Rect.mem_set_unit]
  exact Iff.rfl

/-- The eight blocks of 1024 rows tile the 8192 rows: row `i` is in the block of point `i / 1024`. -/
theorem rows_tiled0_6 (i : S8192x256.Idx) : ∃ t : Fin cfg0.N, (cfg0.win 6).flush t = true ∧ i ∈ ((cfg0.win 6).blk t).view.set := by
  have hi0 : (i 0).val < 8192 := idx2_lt0 i
  have hi1 : (i 1).val < 256 := idx2_lt1 i
  have hN : (i 0).val / 1024 < grid0.N := by rw [N_0]; omega
  refine ⟨(⟨(i 0).val / 1024, hN⟩ : Fin grid0.N), flush0_6 _, ?_⟩
  obtain ⟨-, -, -, -, -, -, -, -, -, -, e0, e1, -⟩ := block_index0 (⟨(i 0).val / 1024, hN⟩ : Fin grid0.N)
  rw [mem_rows0_6]
  intro a
  match a with
  | ⟨0, _⟩ =>
    show win0_6.index (⟨(i 0).val / 1024, hN⟩ : Fin grid0.N) (0 : Fin 2) * 1024 ≤ (i 0).val ∧ (i 0).val < win0_6.index (⟨(i 0).val / 1024, hN⟩ : Fin grid0.N) (0 : Fin 2) * 1024 + 1024
    rw [e0]; show (i 0).val / 1024 * 1024 ≤ (i 0).val ∧ (i 0).val < (i 0).val / 1024 * 1024 + 1024; omega
  | ⟨1, _⟩ =>
    show win0_6.index (⟨(i 0).val / 1024, hN⟩ : Fin grid0.N) (1 : Fin 2) * 256 ≤ (i 1).val ∧ (i 1).val < win0_6.index (⟨(i 0).val / 1024, hN⟩ : Fin grid0.N) (1 : Fin 2) * 256 + 256
    rw [e1]; omega

/-- The second output array when the region ends: the second linear layer of the whole input, at every index. -/
theorem final0_6 (c : Dev nD) (p : Fin 8192) (d : Fin 256) :
    ((dat0 (F := Ideal) V c).arrAt 6 cfg0.N : S8192x256.Idx → EReal) (ix2 p d)
      = Cert.Spec.lin (fun a b => V c main_arg3 (ix2 a b)) (fun a b => V c main_arg7 (ix2 a b)) (fun a => V c main_arg8 (ix1 a)) p d := by
  rw [(dat0 (F := Ideal) V c).arrAt_eq_of_cover 6 (lin2_arr V c) (fun t _ => writeback0_6 V c t) rows_tiled0_6]

/-! ## Output window 7: the input itself -/

/-- What point `t` writes back to output window 7 is block `t` of the whole input array. -/
theorem writeback0_7 (c : Dev nD) (t : Fin cfg0.N) :
    (dat0 (F := Ideal) V c).flushed 7 t = ((cfg0.win 7).blk t).view.read (Elt Ideal) (fun i : S8192x256.Idx => (V c main_arg3 i : EReal)) := by
  show (cfg0.win 7).cut (grid0.coords t) ((dat0 (F := Ideal) V c).after 7 t) = _
  rw [after0_7]
  unfold out0_7
  rw [View.canon_unit_zero off2_zero]
  simp only [View.ld_unit_zero (S := S1024x256) off2_zero]
  obtain ⟨-, -, -, -, -, -, -, -, -, -, -, -, e0, e1⟩ := block_index0 t
  have ht := t_lt8 t
  funext j
  obtain ⟨r, q, rfl⟩ : ∃ (r : Fin 1024) (q : Fin 256), j = ix2 r q := ⟨j 0, j 1, eq_ix2 j⟩
  have hrow : 1024 * t.val + r.val < 8192 := by have := r.isLt; omega
  refine (k0_pay1_apply _ (ix2 r q)).trans ?_
  rw [iblk0_0_apply V c t r q ⟨1024 * t.val + r.val, hrow⟩ rfl]
  show _ = V c main_arg3 (((cfg0.win 7).blk t).view.emb (ix2 r q))
  refine congrArg (V c main_arg3) (funext fun a => Fin.ext ?_)
  match a with
  | ⟨0, _⟩ => show 1024 * t.val + r.val = win0_7.index t (0 : Fin 2) * 1024 + 1 * r.val; omega
  | ⟨1, _⟩ => show q.val = win0_7.index t (1 : Fin 2) * 256 + 1 * q.val; omega

/-- An index of window 7's array is in point `t`'s block iff each coordinate is in the block's range on its axis. -/
theorem mem_rows0_7 (t : Fin cfg0.N) (i : S8192x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0_2).slice (win0_7.rect t)).set ↔ _
  rw [View.set_slice_whole, Rect.mem_set_unit]
  exact Iff.rfl

/-- The eight blocks of 1024 rows tile the 8192 rows: row `i` is in the block of point `i / 1024`. -/
theorem rows_tiled0_7 (i : S8192x256.Idx) : ∃ t : Fin cfg0.N, (cfg0.win 7).flush t = true ∧ i ∈ ((cfg0.win 7).blk t).view.set := by
  have hi0 : (i 0).val < 8192 := idx2_lt0 i
  have hi1 : (i 1).val < 256 := idx2_lt1 i
  have hN : (i 0).val / 1024 < grid0.N := by rw [N_0]; omega
  refine ⟨(⟨(i 0).val / 1024, hN⟩ : Fin grid0.N), flush0_7 _, ?_⟩
  obtain ⟨-, -, -, -, -, -, -, -, -, -, -, -, e0, e1⟩ := block_index0 (⟨(i 0).val / 1024, hN⟩ : Fin grid0.N)
  rw [mem_rows0_7]
  intro a
  match a with
  | ⟨0, _⟩ =>
    show win0_7.index (⟨(i 0).val / 1024, hN⟩ : Fin grid0.N) (0 : Fin 2) * 1024 ≤ (i 0).val ∧ (i 0).val < win0_7.index (⟨(i 0).val / 1024, hN⟩ : Fin grid0.N) (0 : Fin 2) * 1024 + 1024
    rw [e0]; show (i 0).val / 1024 * 1024 ≤ (i 0).val ∧ (i 0).val < (i 0).val / 1024 * 1024 + 1024; omega
  | ⟨1, _⟩ =>
    show win0_7.index (⟨(i 0).val / 1024, hN⟩ : Fin grid0.N) (1 : Fin 2) * 256 ≤ (i 1).val ∧ (i 1).val < win0_7.index (⟨(i 0).val / 1024, hN⟩ : Fin grid0.N) (1 : Fin 2) * 256 + 256
    rw [e1]; omega

/-- The third output array when the region ends: the input array, at every index. -/
theorem final0_7 (c : Dev nD) (p : Fin 8192) (d : Fin 256) :
    ((dat0 (F := Ideal) V c).arrAt 7 cfg0.N : S8192x256.Idx → EReal) (ix2 p d) = V c main_arg3 (ix2 p d) := by
  rw [(dat0 (F := Ideal) V c).arrAt_eq_of_cover 7 (fun i : S8192x256.Idx => (V c main_arg3 i : EReal)) (fun t _ => writeback0_7 V c t) rows_tiled0_7]

end Cert.KernelIdeal.Hand

end
-- ==== Proof.Region1Pieces.lean ====
/-
  What each control case of the second kernel region leaves in the two accumulators and in the output block, as the
  body's payloads applied to the blocks it loaded: a first step adds the block's contribution to the reset value, a
  later step adds it to what the step before left, and the last step computes the output block from the two finished
  accumulators.
-/
import proofs.«111572_j12214886990221_2_alg».proof.Proof.Region1
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open scoped BigOperators

variable {F : FTy → Type} [FloatOps F]

/-- The zero offsets of a rank-two store, as the constant function. -/
theorem off2_zero1 : (![0, 0] : Fin 2 → Nat) = fun _ => 0 := funext fun a => by fin_cases a <;> rfl
/-- The zero offset of a rank-one load, as the constant function. -/
theorem off1_zero1 : (![0] : Fin 1 → Nat) = fun _ => 0 := funext fun a => by fin_cases a <;> rfl

/-- A first step leaves, in the first accumulator, one step's payload over the reset value. -/
theorem sout1_A_0_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) :
    sout1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k1_pay6 x0 x1 x4 (k1_pay3 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun1_A
  dsimp only
  sl_unfold_words
  rw [View.canon_cons_unit_zero off2_zero1]
  rw [View.readCov_unit_zero _ off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

/-- The same for the second accumulator. -/
theorem sout1_A_1_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : cond1_0 i) (hc1 : ¬cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) :
    sout1_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k1_pay1 (k1_pay7 x2 x3 x4 (k1_pay4 (F := F))) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun1_A
  dsimp only
  sl_unfold_words
  rw [View.canon_cons_unit_zero off2_zero1]
  rw [View.readCov_unit_zero _ off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

/-- A middle step leaves, in the first accumulator, one step's payload over what it held. -/
theorem sout1_B_0_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    sout1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay6 x0 x1 x4 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_B
  dsimp only
  sl_unfold_words
  rw [View.canon_unit_zero off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

/-- The same for the second accumulator. -/
theorem sout1_B_1_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : ¬cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    sout1_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay1 (k1_pay7 x2 x3 x4 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_B
  dsimp only
  sl_unfold_words
  rw [View.canon_unit_zero off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

/-- The last step leaves, in the first accumulator, one step's payload over what it held. -/
theorem sout1_C_0_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    sout1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay6 x0 x1 x4 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_C
  dsimp only
  sl_unfold_words
  rw [View.canon_unit_zero off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

/-- The same for the second accumulator. -/
theorem sout1_C_1_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    sout1_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay1 (k1_pay7 x2 x3 x4 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_C
  dsimp only
  sl_unfold_words
  rw [View.canon_unit_zero off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

/-- The last step's output block: the last layer's payload on the two finished accumulators. -/
theorem out1_C_8_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S768x256 .f32) (harg8 : arg8.IsWhole) (arg9 : Memref sig .tc .vmem S256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (hc0 : ¬cond1_0 i) (hc1 : cond1_1 i) (x0 : Vec F S1024x256 .bf16) (x1 : Vec F S1024x256 .bf16) (x2 : Vec F S1024x256 .bf16) (x3 : Vec F S1024x256 .bf16) (x4 : Vec F S1024x256 .bf16) (x5 : Vec F S1024x256 .bf16) (x6 : Vec F S768x256 .f32) (x7 : Vec F S256 .f32) (xs0 : Vec F S1024x256 .f32) (xs1 : Vec F S1024x256 .f32) :
    out1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay2 x5 x6 (k1_pay6 x0 x1 x4 xs0) (k1_pay1 (k1_pay7 x2 x3 x4 xs1)) x7 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_C
  dsimp only
  sl_unfold_words
  rw [View.canon_unit_zero off2_zero1]
  rw [View.readCov_unit_zero _ off2_zero1, View.readCov_unit_zero _ off2_zero1]
  simp only [View.readAt_eq_ld, harg2.read_unread, harg3.read_unread, harg4.read_unread, harg5.read_unread, harg6.read_unread, harg7.read_unread,
    harg8.read_unread, harg9.read_unread, harg11.read_unread, harg12.read_unread,
    View.ld_unit_zero (S := S1024x256) off2_zero1, View.ld_unit_zero (S := S768x256) off2_zero1, View.ld_unit_zero (S := S256) off1_zero1]

end Cert.KernelIdeal.Hand

end
-- ==== Proof.Region1Pay.lean ====
/-
  The payloads of the second kernel region, read at an index at the ideal values.  The two accumulators start from the
  value of the zero word; each reduction step adds, at row r and column c of the block, the sum over the 1024 rows k of
  the step's block of (the Gram entry of row r and row k, times the word of 1/256) times the entry (k, c); the last
  step's output is the three contractions of 256 against the three stretches of the weight matrix, plus the bias,
  clamped at the value of the zero word.
-/
import proofs.«111572_j12214886990221_2_alg».proof.Proof.Gen.KernelIdeal.Skeleton
import proofs.«111572_j12214886990221_2_alg».proof.Proof.Spec
import proofs.«111572_j12214886990221_2_alg».proof.Proof.LibRowOps
import proofs.«111572_j12214886990221_2_alg».proof.Proof.LibRowBlock
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-! ## The product of a block of rows with another block of rows transposed -/

theorem lhsT_0 (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhsT_1 (i : S1024x1024.Idx) (q : dot_S1024x256_S1024x256_S1024x1024_1_1_0_0_n_n.contr.Idx) : (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhsT_0 (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhsT_1 (i : S1024x1024.Idx) (q : dot_S1024x256_S1024x256_S1024x1024_1_1_0_0_n_n.contr.Idx) : (dot_S1024x256_S1024x256_S1024x1024_1_1_0_0_n_n.rhsIdx i q 1).val = (q ⟨0, by decide⟩).val :=
  dot_S1024x256_S1024x256_S1024x1024_1_1_0_0_n_n.rhsIdx_val_of_single rfl i q

/-- Rows against rows: the product that contracts the columns of both operands, accumulated into zero, read at (r, k),
    is the sum over the columns d of A(r, d)·B(k, d). -/
theorem matmulT_zero_ix2 {φ₁ φ₂ : FTy} (A : FVec Ideal S1024x256 φ₁) (B : FVec Ideal S1024x256 φ₂) (r k : Fin 1024) :
    matmul dot_S1024x256_S1024x256_S1024x1024_1_1_0_0_n_n none A B (constant S1024x1024 .f32 0x00000000#32) (ix2 r k) = ∑ d : Fin 256, A (ix2 r d) * B (ix2 k d) := by
  refine (Ideal.matmul_constant_zero_apply dot_S1024x256_S1024x256_S1024x1024_1_1_0_0_n_n none A B (ix2 r k)).trans ?_
  rw [← Equiv.sum_comp (ValueIdx.contrEquiv1 dot_S1024x256_S1024x256_S1024x1024_1_1_0_0_n_n 256 rfl rfl).symm]
  refine Finset.sum_congr rfl fun d _ => ?_
  have hk := ValueIdx.contrEquiv1_symm_val dot_S1024x256_S1024x256_S1024x1024_1_1_0_0_n_n 256 rfl rfl d
  have el : dot_S1024x256_S1024x256_S1024x1024_1_1_0_0_n_n.lhsIdx (ix2 r k) ((ValueIdx.contrEquiv1 dot_S1024x256_S1024x256_S1024x1024_1_1_0_0_n_n 256 rfl rfl).symm d) = ix2 r d := funext fun a => Fin.ext (by
    match a with
    | ⟨0, _⟩ => exact lhsT_0 _ _
    | ⟨1, _⟩ => exact (lhsT_1 _ _).trans hk)
  have er : dot_S1024x256_S1024x256_S1024x1024_1_1_0_0_n_n.rhsIdx (ix2 r k) ((ValueIdx.contrEquiv1 dot_S1024x256_S1024x256_S1024x1024_1_1_0_0_n_n 256 rfl rfl).symm d) = ix2 k d := funext fun a => Fin.ext (by
    match a with
    | ⟨0, _⟩ => exact rhsT_0 _ _
    | ⟨1, _⟩ => exact (rhsT_1 _ _).trans hk)
  rw [el, er]

/-! ## The payloads -/

/-- The first accumulator's reset value: the value of the zero word everywhere. -/
theorem pay3_apply (j : S1024x256.Idx) : (k1_pay3 (F := Ideal) j : EReal) = Cert.Spec.z := by
  unfold k1_pay3
  rw [shapeCast_self]
  rfl
/-- The second accumulator's reset value: the same. -/
theorem pay4_apply (j : S1024x256.Idx) : (k1_pay4 (F := Ideal) j : EReal) = Cert.Spec.z := by
  unfold k1_pay4
  rw [shapeCast_self]
  rfl
/-- The second accumulator's store writes what the step computed. -/
theorem pay1_eq (v : FVec Ideal S1024x256 .f32) : k1_pay1 (F := Ideal) v = v := by
  unfold k1_pay1
  exact shapeCast_self _ _
theorem pay5_eq (v : Vec Ideal S1024x256 .bf16) : k1_pay5 (F := Ideal) v = v := by
  unfold k1_pay5
  exact shapeCast_self _ _

/-- One reduction step of the first accumulator at row r, column c: what it held plus the block's contribution. -/
theorem pay6_apply (ei ej xj : Vec Ideal S1024x256 .bf16) (acc : Vec Ideal S1024x256 .f32) (r : Fin 1024) (cc : Fin 256) :
    (k1_pay6 (F := Ideal) ei ej xj acc (ix2 r cc) : EReal)
      = acc (ix2 r cc) + ∑ k : Fin 1024, ((∑ d : Fin 256, ei (ix2 r d) * ej (ix2 k d)) * Cert.Spec.cInv) * xj (ix2 k cc) := by
  unfold k1_pay6
  rw [shapeCast_self, shapeCast_self, shapeCast_self, pay5_eq, addf_apply]
  rw [Cert.RowLib.dotDims_eq_plain dot_S1024x1024_S1024x256_S1024x256_1_0_0_1_n_n rfl rfl rfl rfl rfl rfl]
  rw [Cert.RowLib.matmul_plain_zero_ix2]
  refine congrArg (fun t => acc (ix2 r cc) + t) (Finset.sum_congr rfl fun k _ => ?_)
  rw [truncf_apply, mulf_apply, broadcast_apply, matmulT_zero_ix2]
  rfl

/-- One reduction step of the second accumulator, likewise. -/
theorem pay7_apply (ei ej xj : Vec Ideal S1024x256 .bf16) (acc : Vec Ideal S1024x256 .f32) (r : Fin 1024) (cc : Fin 256) :
    (k1_pay7 (F := Ideal) ei ej xj acc (ix2 r cc) : EReal)
      = acc (ix2 r cc) + ∑ k : Fin 1024, ((∑ d : Fin 256, ei (ix2 r d) * ej (ix2 k d)) * Cert.Spec.cInv) * xj (ix2 k cc) := by
  unfold k1_pay7
  rw [shapeCast_self, shapeCast_self, pay5_eq, addf_apply]
  rw [Cert.RowLib.dotDims_eq_plain dot_S1024x1024_S1024x256_S1024x256_1_0_0_1_n_n rfl rfl rfl rfl rfl rfl]
  rw [Cert.RowLib.matmul_plain_zero_ix2]
  refine congrArg (fun t => acc (ix2 r cc) + t) (Finset.sum_congr rfl fun k _ => ?_)
  rw [truncf_apply, mulf_apply, broadcast_apply, matmulT_zero_ix2]
  rfl

/-- The last step's output at row r, column c: the three contractions of 256 against the three stretches of the weight
    matrix, added left to right, plus the bias, clamped at the value of the zero word. -/
theorem pay2_apply (x : Vec Ideal S1024x256 .bf16) (W : Vec Ideal S768x256 .f32) (a1 a2 : Vec Ideal S1024x256 .f32) (b : Vec Ideal S256 .f32)
    (r : Fin 1024) (cc : Fin 256) :
    (k1_pay2 (F := Ideal) x W a1 a2 b (ix2 r cc) : EReal)
      = max ((((∑ d : Fin 256, x (ix2 r d) * W (ix2 (Cert.Spec.w3row 0 d) cc)) + (∑ d : Fin 256, a1 (ix2 r d) * W (ix2 (Cert.Spec.w3row 1 d) cc)))
          + (∑ d : Fin 256, a2 (ix2 r d) * W (ix2 (Cert.Spec.w3row 2 d) cc))) + b (ix1 cc)) Cert.Spec.z := by
  unfold k1_pay2
  rw [shapeCast_self, maximumf_apply, addf_apply, addf_apply, addf_apply, broadcast_apply]
  rw [Cert.RowLib.dotDims_eq_plain dot_S1024x256_S256x256_S1024x256_1_0_0_1_n_n rfl rfl rfl rfl rfl rfl]
  rw [Cert.RowLib.matmul_plain_zero_ix2, Cert.RowLib.matmul_plain_zero_ix2, Cert.RowLib.matmul_plain_zero_ix2,
    Cert.RowBlockLib.bias_rows_apply (by decide)]
  have s0 : ∀ d : Fin 256, extractStridedSlice S256x256 ![0, 0] (truncf .bf16 W bitsLt_bf16_f32 : FVec Ideal S768x256 .bf16) slices_S768x256_o0_0_S256x256 (ix2 d cc)
      = W (ix2 (Cert.Spec.w3row 0 d) cc) := fun d =>
    extractStridedSlice_apply _ _ _ (ix2 d cc) (ix2 (Cert.Spec.w3row 0 d) cc) (fun a => by
      match a with
      | ⟨0, _⟩ => show 256 * 0 + d.val = 0 + d.val; omega
      | ⟨1, _⟩ => show cc.val = 0 + cc.val; omega)
  have s1 : ∀ d : Fin 256, extractStridedSlice S256x256 ![256, 0] (truncf .bf16 W bitsLt_bf16_f32 : FVec Ideal S768x256 .bf16) slices_S768x256_o256_0_S256x256 (ix2 d cc)
      = W (ix2 (Cert.Spec.w3row 1 d) cc) := fun d =>
    extractStridedSlice_apply _ _ _ (ix2 d cc) (ix2 (Cert.Spec.w3row 1 d) cc) (fun a => by
      match a with
      | ⟨0, _⟩ => show 256 * 1 + d.val = 256 + d.val; omega
      | ⟨1, _⟩ => show cc.val = 0 + cc.val; omega)
  have s2 : ∀ d : Fin 256, extractStridedSlice S256x256 ![512, 0] (truncf .bf16 W bitsLt_bf16_f32 : FVec Ideal S768x256 .bf16) slices_S768x256_o512_0_S256x256 (ix2 d cc)
      = W (ix2 (Cert.Spec.w3row 2 d) cc) := fun d =>
    extractStridedSlice_apply _ _ _ (ix2 d cc) (ix2 (Cert.Spec.w3row 2 d) cc) (fun a => by
      match a with
      | ⟨0, _⟩ => show 256 * 2 + d.val = 512 + d.val; omega
      | ⟨1, _⟩ => show cc.val = 0 + cc.val; omega)
  refine congrArg (fun t => max (t + b (ix1 cc)) Cert.Spec.z) ?_
  refine congrArg₂ (· + ·) (congrArg₂ (· + ·) ?_ ?_) ?_
  · exact Finset.sum_congr rfl fun d _ => by rw [s0 d]
  · exact Finset.sum_congr rfl fun d _ => by rw [s1 d]; rfl
  · exact Finset.sum_congr rfl fun d _ => by rw [s2 d]; rfl

end Cert.KernelIdeal.Hand

end
-- ==== Proof.Region1Value.lean ====
/-
  The value of the second kernel region at the ideal values.  Point t of the 8 × 8 grid has row block i = t / 8 and
  reduction step j = t % 8.  After the body at point t each accumulator holds, at row r and column c of the block, the
  running total of the specification's tiled arrangement after blocks 0 … j, at row 1024 i + r; at the last step the
  output block holds the last layer of that row.  The output blocks of the eight last steps tile the 8192 rows, so the
  output array ends holding the tiled arrangement of the whole function.
-/
import proofs.«111572_j12214886990221_2_alg».proof.Proof.Region1Pieces
import proofs.«111572_j12214886990221_2_alg».proof.Proof.Region1Pay

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## What each case of the recursion leaves, as payloads of the point's blocks (any float instance) -/

section Steps
variable {F : FTy → Type} [FloatOps F]
variable (V : (c : Dev nD) → (b : Ref sig .tc) → Buf (Elt F) ((c : Thread nD τ).loc b))

theorem stepA_acc0 (c : Dev nD) (t : Fin cfg1.N) (h0 : t.val % 8 = 0) (h1 : ¬t.val % 8 = 7) :
    (stepA V c t h0 h1).2.1 = k1_pay6 (iblk1 V c 0 t) (iblk1 V c 1 t) (iblk1 V c 4 t) (k1_pay3 (F := F)) := by
  unfold stepA; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)
theorem stepA_acc1 (c : Dev nD) (t : Fin cfg1.N) (h0 : t.val % 8 = 0) (h1 : ¬t.val % 8 = 7) :
    (stepA V c t h0 h1).2.2 = k1_pay1 (k1_pay7 (iblk1 V c 2 t) (iblk1 V c 3 t) (iblk1 V c 4 t) (k1_pay4 (F := F))) := by
  unfold stepA; dsimp only
  exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)
theorem stepB_acc0 (c : Dev nD) (t : Fin cfg1.N) (h0 : ¬t.val % 8 = 0) (h1 : ¬t.val % 8 = 7) (s0 s1 : Vec F S1024x256 .f32) :
    (stepB V c t h0 h1 s0 s1).2.1 = k1_pay6 (iblk1 V c 0 t) (iblk1 V c 1 t) (iblk1 V c 4 t) s0 := by
  unfold stepB; dsimp only
  exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1
theorem stepB_acc1 (c : Dev nD) (t : Fin cfg1.N) (h0 : ¬t.val % 8 = 0) (h1 : ¬t.val % 8 = 7) (s0 s1 : Vec F S1024x256 .f32) :
    (stepB V c t h0 h1 s0 s1).2.2 = k1_pay1 (k1_pay7 (iblk1 V c 2 t) (iblk1 V c 3 t) (iblk1 V c 4 t) s1) := by
  unfold stepB; dsimp only
  exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) s0 s1
theorem stepC_acc0 (c : Dev nD) (t : Fin cfg1.N) (h0 : ¬t.val % 8 = 0) (h1 : t.val % 8 = 7) (s0 s1 : Vec F S1024x256 .f32) :
    (stepC V c t h0 h1 s0 s1).2.1 = k1_pay6 (iblk1 V c 0 t) (iblk1 V c 1 t) (iblk1 V c 4 t) s0 := by
  unfold stepC; dsimp only
  exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1
theorem stepC_acc1 (c : Dev nD) (t : Fin cfg1.N) (h0 : ¬t.val % 8 = 0) (h1 : t.val % 8 = 7) (s0 s1 : Vec F S1024x256 .f32) :
    (stepC V c t h0 h1 s0 s1).2.2 = k1_pay1 (k1_pay7 (iblk1 V c 2 t) (iblk1 V c 3 t) (iblk1 V c 4 t) s1) := by
  unfold stepC; dsimp only
  exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1
theorem stepC_out (c : Dev nD) (t : Fin cfg1.N) (h0 : ¬t.val % 8 = 0) (h1 : t.val % 8 = 7) (s0 s1 : Vec F S1024x256 .f32) :
    (stepC V c t h0 h1 s0 s1).1 = k1_pay2 (iblk1 V c 5 t) (iblk1 V c 6 t) (k1_pay6 (iblk1 V c 0 t) (iblk1 V c 1 t) (iblk1 V c 4 t) s0)
      (k1_pay1 (k1_pay7 (iblk1 V c 2 t) (iblk1 V c 3 t) (iblk1 V c 4 t) s1)) (iblk1 V c 7 t) := by
  unfold stepC; dsimp only
  exact out1_C_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole cc1_scratch0) scM1_1 (Memref.isWhole_whole cc1_scratch1) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) s0 s1

/-- The recursion at a later point that is a middle step. -/
theorem outs_succ_B (c : Dev nD) (m : ℕ) (hn : m + 1 < cfg1.N) (h0 : ¬(m + 1) % 8 = 0) (h1 : ¬(m + 1) % 8 = 7) :
    outsAt1 V c (m + 1) hn = stepB V c ⟨m + 1, hn⟩ h0 h1 (outsAt1 V c m (Nat.lt_of_succ_lt hn)).2.1 (outsAt1 V c m (Nat.lt_of_succ_lt hn)).2.2 :=
  (dif_neg h0).trans ((dif_neg h1).trans rfl)
/-- The recursion at a later point that is a last step. -/
theorem outs_succ_C (c : Dev nD) (m : ℕ) (hn : m + 1 < cfg1.N) (h0 : ¬(m + 1) % 8 = 0) (h1 : (m + 1) % 8 = 7) :
    outsAt1 V c (m + 1) hn = stepC V c ⟨m + 1, hn⟩ h0 h1 (outsAt1 V c m (Nat.lt_of_succ_lt hn)).2.1 (outsAt1 V c m (Nat.lt_of_succ_lt hn)).2.2 :=
  (dif_neg h0).trans ((dif_pos h1).trans rfl)
/-- The recursion at a point that is a first step. -/
theorem outs_A (c : Dev nD) (n : ℕ) (hn : n < cfg1.N) (h0 : n % 8 = 0) (h1 : ¬n % 8 = 7) :
    outsAt1 V c n hn = stepA V c ⟨n, hn⟩ h0 h1 :=
  outsAt1_A V c ⟨n, hn⟩ h0 h1

end Steps

/-! ## Where each window's block sits in its array -/

-- the TensorCore's buffer contents when the region is entered, at the ideal values
variable (V : (c : Dev nD) → (b : Ref sig .tc) → Buf (Elt Ideal) ((c : Thread nD τ).loc b))

/-- The printed index maps, decided over the 64 grid points: the row-block windows sit at block t / 8 of the rows, the
    reduction-step windows at block t % 8, all at block 0 of the columns; the last layer's weights and bias at block 0. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val % 8 ∧ win1_3.index t (1 : Fin 2) = 0
    ∧ win1_4.index t (0 : Fin 2) = t.val % 8 ∧ win1_4.index t (1 : Fin 2) = 0
    ∧ win1_5.index t (0 : Fin 2) = t.val / 8 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val / 8 ∧ win1_8.index t (1 : Fin 2) = 0 :=
  (by decide +kernel : ∀ t : Fin grid1.N, _)

/-- The grid has 64 points, as a bound `omega` can use. -/
theorem t_lt64 (t : Fin cfg1.N) : t.val < 64 := by
  have h : t.val < grid1.N := t.isLt
  rw [N_1] at h; exact h

/-- Row r of the first layer's row-block window at point t is row 1024 (t / 8) + r of the first layer. -/
theorem iblk1_0_apply (c : Dev nD) (t : Fin cfg1.N) (r : Fin 1024) (k : Fin 256) (p : Fin 8192) (hp : p.val = 1024 * (t.val / 8) + r.val) :
    (iblk1 V c 0 t (ix2 r k) : EReal) = V c main_v0_0 (ix2 p k) := by
  have hf := idx_facts1 t
  show V c main_v0_0 (((cfg1.win 0).blk t).view.emb (ix2 r k)) = V c main_v0_0 (ix2 p k)
  refine congrArg (V c main_v0_0) (funext fun a => Fin.ext ?_)
  match a with
  | ⟨0, _⟩ => show win1_0.index t (0 : Fin 2) * 1024 + 1 * r.val = p.val; omega
  | ⟨1, _⟩ => show win1_0.index t (1 : Fin 2) * 256 + 1 * k.val = k.val; omega

/-- Row r of the first layer's reduction-step window at point t is row 1024 (t % 8) + r of the first layer. -/
theorem iblk1_1_apply (c : Dev nD) (t : Fin cfg1.N) (r : Fin 1024) (k : Fin 256) (p : Fin 8192) (hp : p.val = 1024 * (t.val % 8) + r.val) :
    (iblk1 V c 1 t (ix2 r k) : EReal) = V c main_v0_0 (ix2 p k) := by
  have hf := idx_facts1 t
  show V c main_v0_0 (((cfg1.win 1).blk t).view.emb (ix2 r k)) = V c main_v0_0 (ix2 p k)
  refine congrArg (V c main_v0_0) (funext fun a => Fin.ext ?_)
  match a with
  | ⟨0, _⟩ => show win1_1.index t (0 : Fin 2) * 1024 + 1 * r.val = p.val; omega
  | ⟨1, _⟩ => show win1_1.index t (1 : Fin 2) * 256 + 1 * k.val = k.val; omega

/-- The second layer's row-block window, likewise. -/
theorem iblk1_2_apply (c : Dev nD) (t : Fin cfg1.N) (r : Fin 1024) (k : Fin 256) (p : Fin 8192) (hp : p.val = 1024 * (t.val / 8) + r.val) :
    (iblk1 V c 2 t (ix2 r k) : EReal) = V c main_v0_1 (ix2 p k) := by
  have hf := idx_facts1 t
  show V c main_v0_1 (((cfg1.win 2).blk t).view.emb (ix2 r k)) = V c main_v0_1 (ix2 p k)
  refine congrArg (V c main_v0_1) (funext fun a => Fin.ext ?_)
  match a with
  | ⟨0, _⟩ => show win1_2.index t (0 : Fin 2) * 1024 + 1 * r.val = p.val; omega
  | ⟨1, _⟩ => show win1_2.index t (1 : Fin 2) * 256 + 1 * k.val = k.val; omega

/-- The second layer's reduction-step window, likewise. -/
theorem iblk1_3_apply (c : Dev nD) (t : Fin cfg1.N) (r : Fin 1024) (k : Fin 256) (p : Fin 8192) (hp : p.val = 1024 * (t.val % 8) + r.val) :
    (iblk1 V c 3 t (ix2 r k) : EReal) = V c main_v0_1 (ix2 p k) := by
  have hf := idx_facts1 t
  show V c main_v0_1 (((cfg1.win 3).blk t).view.emb (ix2 r k)) = V c main_v0_1 (ix2 p k)
  refine congrArg (V c main_v0_1) (funext fun a => Fin.ext ?_)
  match a with
  | ⟨0, _⟩ => show win1_3.index t (0 : Fin 2) * 1024 + 1 * r.val = p.val; omega
  | ⟨1, _⟩ => show win1_3.index t (1 : Fin 2) * 256 + 1 * k.val = k.val; omega

/-- The input's reduction-step window, likewise. -/
theorem iblk1_4_apply (c : Dev nD) (t : Fin cfg1.N) (r : Fin 1024) (k : Fin 256) (p : Fin 8192) (hp : p.val = 1024 * (t.val % 8) + r.val) :
    (iblk1 V c 4 t (ix2 r k) : EReal) = V c main_v0_2 (ix2 p k) := by
  have hf := idx_facts1 t
  show V c main_v0_2 (((cfg1.win 4).blk t).view.emb (ix2 r k)) = V c main_v0_2 (ix2 p k)
  refine congrArg (V c main_v0_2) (funext fun a => Fin.ext ?_)
  match a with
  | ⟨0, _⟩ => show win1_4.index t (0 : Fin 2) * 1024 + 1 * r.val = p.val; omega
  | ⟨1, _⟩ => show win1_4.index t (1 : Fin 2) * 256 + 1 * k.val = k.val; omega

/-- The input's row-block window, likewise. -/
theorem iblk1_5_apply (c : Dev nD) (t : Fin cfg1.N) (r : Fin 1024) (k : Fin 256) (p : Fin 8192) (hp : p.val = 1024 * (t.val / 8) + r.val) :
    (iblk1 V c 5 t (ix2 r k) : EReal) = V c main_v0_2 (ix2 p k) := by
  have hf := idx_facts1 t
  show V c main_v0_2 (((cfg1.win 5).blk t).view.emb (ix2 r k)) = V c main_v0_2 (ix2 p k)
  refine congrArg (V c main_v0_2) (funext fun a => Fin.ext ?_)
  match a with
  | ⟨0, _⟩ => show win1_5.index t (0 : Fin 2) * 1024 + 1 * r.val = p.val; omega
  | ⟨1, _⟩ => show win1_5.index t (1 : Fin 2) * 256 + 1 * k.val = k.val; omega

/-- The last weight matrix's block is the whole matrix at every point. -/
theorem iblk1_6_apply (c : Dev nD) (t : Fin cfg1.N) (k : Fin 768) (q : Fin 256) :
    (iblk1 V c 6 t (ix2 k q) : EReal) = V c main_arg9 (ix2 k q) := by
  have hf := idx_facts1 t
  show V c main_arg9 (((cfg1.win 6).blk t).view.emb (ix2 k q)) = V c main_arg9 (ix2 k q)
  refine congrArg (V c main_arg9) (funext fun a => Fin.ext ?_)
  match a with
  | ⟨0, _⟩ => show win1_6.index t (0 : Fin 2) * 768 + 1 * k.val = k.val; omega
  | ⟨1, _⟩ => show win1_6.index t (1 : Fin 2) * 256 + 1 * q.val = q.val; omega
/-- The last bias's block is the whole vector at every point. -/
theorem iblk1_7_apply (c : Dev nD) (t : Fin cfg1.N) (q : Fin 256) :
    (iblk1 V c 7 t (ix1 q) : EReal) = V c main_arg10 (ix1 q) := by
  have hf := idx_facts1 t
  show V c main_arg10 (((cfg1.win 7).blk t).view.emb (ix1 q)) = V c main_arg10 (ix1 q)
  refine congrArg (V c main_arg10) (funext fun a => Fin.ext ?_)
  match a with
  | ⟨0, _⟩ => show win1_7.index t (0 : Fin 1) * 256 + 1 * q.val = q.val; omega

/-! ## One reduction step, in the specification's terms -/

/-- Adding one block's contribution: if the accumulator holds the running total after blocks 0 … j - 1 at row p (the
    value of the zero word when j = 0), and the three loaded blocks are row p of E's row block, block j of E and block j
    of X, then the step's sum added to it is the running total after blocks 0 … j. -/
theorem acc_step (E X : Fin 8192 → Fin 256 → EReal) (ei ej xj : Vec Ideal S1024x256 .bf16) (a : EReal)
    (r : Fin 1024) (cc : Fin 256) (p : Fin 8192) (j : ℕ) (hj : j < 8)
    (hei : ∀ d : Fin 256, (ei (ix2 r d) : EReal) = E p d)
    (hej : ∀ (k : Fin 1024) (d : Fin 256), (ej (ix2 k d) : EReal) = E (Cert.Spec.row ⟨j, hj⟩ k) d)
    (hxj : ∀ k : Fin 1024, (xj (ix2 k cc) : EReal) = X (Cert.Spec.row ⟨j, hj⟩ k) cc)
    (ha : a = if j = 0 then Cert.Spec.z else Cert.Spec.accT (Cert.Spec.simT E) X p cc (j - 1)) :
    a + ∑ k : Fin 1024, ((∑ d : Fin 256, (ei (ix2 r d) : EReal) * ej (ix2 k d)) * Cert.Spec.cInv) * xj (ix2 k cc)
      = Cert.Spec.accT (Cert.Spec.simT E) X p cc j := by
  have hsum : (∑ k : Fin 1024, ((∑ d : Fin 256, (ei (ix2 r d) : EReal) * ej (ix2 k d)) * Cert.Spec.cInv) * xj (ix2 k cc))
      = Cert.Spec.blockT (Cert.Spec.simT E) X ⟨j, hj⟩ p cc := by
    unfold Cert.Spec.blockT Cert.Spec.simT Cert.Spec.gram
    refine Finset.sum_congr rfl fun k _ => ?_
    rw [hxj k]
    refine congrArg (fun t => t * Cert.Spec.cInv * X (Cert.Spec.row ⟨j, hj⟩ k) cc) ?_
    exact Finset.sum_congr rfl fun d _ => by rw [hei d, hej k d]
  rw [hsum, ha]
  cases j with
  | zero => rw [if_pos rfl]; rfl
  | succ j' =>
    rw [if_neg (Nat.succ_ne_zero j'), Nat.add_sub_cancel]
    show _ = Cert.Spec.accT (Cert.Spec.simT E) X p cc j' + (if h : j' + 1 < 8 then Cert.Spec.blockT (Cert.Spec.simT E) X ⟨j' + 1, h⟩ p cc else 0)
    rw [dif_pos hj]

/-! ## The arrays the region is entered with, as functions of coordinates -/

/-- The first clamped layer. -/
abbrev E1 (c : Dev nD) : Fin 8192 → Fin 256 → EReal := fun a b => V c main_v0_0 (ix2 a b)
/-- The second clamped layer. -/
abbrev E2 (c : Dev nD) : Fin 8192 → Fin 256 → EReal := fun a b => V c main_v0_1 (ix2 a b)
/-- The input. -/
abbrev XX (c : Dev nD) : Fin 8192 → Fin 256 → EReal := fun a b => V c main_v0_2 (ix2 a b)
/-- The last layer's weights. -/
abbrev W3f (c : Dev nD) : Fin 768 → Fin 256 → EReal := fun a b => V c main_arg9 (ix2 a b)
/-- The last layer's bias. -/
abbrev B3f (c : Dev nD) : Fin 256 → EReal := fun a => V c main_arg10 (ix1 a)

/-! ## The invariant of the recursion over the points -/

/-- At a first step both accumulators hold the running totals after block 0. -/
theorem acc_inv_A (c : Dev nD) (n : ℕ) (hn : n < cfg1.N) (h0 : n % 8 = 0) (h1 : ¬n % 8 = 7) (r : Fin 1024) (cc : Fin 256)
    (p : Fin 8192) (hp : p.val = 1024 * (n / 8) + r.val) :
    ((outsAt1 V c n hn).2.1 (ix2 r cc) : EReal) = Cert.Spec.accT (Cert.Spec.simT (E1 V c)) (XX V c) p cc (n % 8)
    ∧ ((outsAt1 V c n hn).2.2 (ix2 r cc) : EReal) = Cert.Spec.accT (Cert.Spec.simT (E2 V c)) (XX V c) p cc (n % 8) := by
  have hj : n % 8 < 8 := Nat.mod_lt _ (by decide)
  rw [outs_A V c n hn h0 h1, stepA_acc0, stepA_acc1, pay1_eq]
  exact ⟨(pay6_apply (iblk1 V c 0 (⟨n, hn⟩ : Fin cfg1.N)) (iblk1 V c 1 (⟨n, hn⟩ : Fin cfg1.N)) (iblk1 V c 4 (⟨n, hn⟩ : Fin cfg1.N)) (k1_pay3 (F := Ideal)) r cc).trans
      (acc_step (E1 V c) (XX V c) (iblk1 V c 0 (⟨n, hn⟩ : Fin cfg1.N)) (iblk1 V c 1 (⟨n, hn⟩ : Fin cfg1.N)) (iblk1 V c 4 (⟨n, hn⟩ : Fin cfg1.N)) (k1_pay3 (F := Ideal) (ix2 r cc)) r cc p (n % 8) hj
        (fun d => iblk1_0_apply V c (⟨n, hn⟩ : Fin cfg1.N) r d p hp)
        (fun k d => iblk1_1_apply V c (⟨n, hn⟩ : Fin cfg1.N) k d (Cert.Spec.row ⟨n % 8, hj⟩ k) rfl)
        (fun k => iblk1_4_apply V c (⟨n, hn⟩ : Fin cfg1.N) k cc (Cert.Spec.row ⟨n % 8, hj⟩ k) rfl)
        (by rw [if_pos h0]; exact pay3_apply _)),
    (pay7_apply (iblk1 V c 2 (⟨n, hn⟩ : Fin cfg1.N)) (iblk1 V c 3 (⟨n, hn⟩ : Fin cfg1.N)) (iblk1 V c 4 (⟨n, hn⟩ : Fin cfg1.N)) (k1_pay4 (F := Ideal)) r cc).trans
      (acc_step (E2 V c) (XX V c) (iblk1 V c 2 (⟨n, hn⟩ : Fin cfg1.N)) (iblk1 V c 3 (⟨n, hn⟩ : Fin cfg1.N)) (iblk1 V c 4 (⟨n, hn⟩ : Fin cfg1.N)) (k1_pay4 (F := Ideal) (ix2 r cc)) r cc p (n % 8) hj
        (fun d => iblk1_2_apply V c (⟨n, hn⟩ : Fin cfg1.N) r d p hp)
        (fun k d => iblk1_3_apply V c (⟨n, hn⟩ : Fin cfg1.N) k d (Cert.Spec.row ⟨n % 8, hj⟩ k) rfl)
        (fun k => iblk1_4_apply V c (⟨n, hn⟩ : Fin cfg1.N) k cc (Cert.Spec.row ⟨n % 8, hj⟩ k) rfl)
        (by rw [if_pos h0]; exact pay4_apply _))⟩

/-- After the body at point n each accumulator holds, at row r of the block, the running total after blocks 0 … n % 8
    at row 1024 (n / 8) + r. -/
theorem acc_inv (c : Dev nD) : ∀ (n : ℕ) (hn : n < cfg1.N) (r : Fin 1024) (cc : Fin 256) (p : Fin 8192), p.val = 1024 * (n / 8) + r.val →
    ((outsAt1 V c n hn).2.1 (ix2 r cc) : EReal) = Cert.Spec.accT (Cert.Spec.simT (E1 V c)) (XX V c) p cc (n % 8)
    ∧ ((outsAt1 V c n hn).2.2 (ix2 r cc) : EReal) = Cert.Spec.accT (Cert.Spec.simT (E2 V c)) (XX V c) p cc (n % 8) := by
  intro n
  induction n with
  | zero =>
    intro hn r cc p hp
    exact acc_inv_A V c 0 hn rfl (by decide) r cc p hp
  | succ m ih =>
    intro hn r cc p hp
    by_cases h0 : (m + 1) % 8 = 0
    · exact acc_inv_A V c (m + 1) hn h0 (by omega) r cc p hp
    · have hp' : p.val = 1024 * (m / 8) + r.val := by omega
      have hm8 : m % 8 = (m + 1) % 8 - 1 := by omega
      have hj : (m + 1) % 8 < 8 := Nat.mod_lt _ (by decide)
      obtain ⟨ih0, ih1⟩ := ih (Nat.lt_of_succ_lt hn) r cc p hp'
      by_cases h1 : (m + 1) % 8 = 7
      · rw [outs_succ_C V c m hn h0 h1, stepC_acc0, stepC_acc1, pay1_eq]
        exact ⟨(pay6_apply (iblk1 V c 0 (⟨m + 1, hn⟩ : Fin cfg1.N)) (iblk1 V c 1 (⟨m + 1, hn⟩ : Fin cfg1.N)) (iblk1 V c 4 (⟨m + 1, hn⟩ : Fin cfg1.N)) (outsAt1 V c m (Nat.lt_of_succ_lt hn)).2.1 r cc).trans
            (acc_step (E1 V c) (XX V c) (iblk1 V c 0 (⟨m + 1, hn⟩ : Fin cfg1.N)) (iblk1 V c 1 (⟨m + 1, hn⟩ : Fin cfg1.N)) (iblk1 V c 4 (⟨m + 1, hn⟩ : Fin cfg1.N)) ((outsAt1 V c m (Nat.lt_of_succ_lt hn)).2.1 (ix2 r cc)) r cc p ((m + 1) % 8) hj
        (fun d => iblk1_0_apply V c (⟨m + 1, hn⟩ : Fin cfg1.N) r d p hp)
        (fun k d => iblk1_1_apply V c (⟨m + 1, hn⟩ : Fin cfg1.N) k d (Cert.Spec.row ⟨(m + 1) % 8, hj⟩ k) rfl)
        (fun k => iblk1_4_apply V c (⟨m + 1, hn⟩ : Fin cfg1.N) k cc (Cert.Spec.row ⟨(m + 1) % 8, hj⟩ k) rfl)
        (by rw [if_neg h0, ← hm8]; exact ih0)),
          (pay7_apply (iblk1 V c 2 (⟨m + 1, hn⟩ : Fin cfg1.N)) (iblk1 V c 3 (⟨m + 1, hn⟩ : Fin cfg1.N)) (iblk1 V c 4 (⟨m + 1, hn⟩ : Fin cfg1.N)) (outsAt1 V c m (Nat.lt_of_succ_lt hn)).2.2 r cc).trans
            (acc_step (E2 V c) (XX V c) (iblk1 V c 2 (⟨m + 1, hn⟩ : Fin cfg1.N)) (iblk1 V c 3 (⟨m + 1, hn⟩ : Fin cfg1.N)) (iblk1 V c 4 (⟨m + 1, hn⟩ : Fin cfg1.N)) ((outsAt1 V c m (Nat.lt_of_succ_lt hn)).2.2 (ix2 r cc)) r cc p ((m + 1) % 8) hj
        (fun d => iblk1_2_apply V c (⟨m + 1, hn⟩ : Fin cfg1.N) r d p hp)
        (fun k d => iblk1_3_apply V c (⟨m + 1, hn⟩ : Fin cfg1.N) k d (Cert.Spec.row ⟨(m + 1) % 8, hj⟩ k) rfl)
        (fun k => iblk1_4_apply V c (⟨m + 1, hn⟩ : Fin cfg1.N) k cc (Cert.Spec.row ⟨(m + 1) % 8, hj⟩ k) rfl)
        (by rw [if_neg h0, ← hm8]; exact ih1))⟩
      · rw [outs_succ_B V c m hn h0 h1, stepB_acc0, stepB_acc1, pay1_eq]
        exact ⟨(pay6_apply (iblk1 V c 0 (⟨m + 1, hn⟩ : Fin cfg1.N)) (iblk1 V c 1 (⟨m + 1, hn⟩ : Fin cfg1.N)) (iblk1 V c 4 (⟨m + 1, hn⟩ : Fin cfg1.N)) (outsAt1 V c m (Nat.lt_of_succ_lt hn)).2.1 r cc).trans
            (acc_step (E1 V c) (XX V c) (iblk1 V c 0 (⟨m + 1, hn⟩ : Fin cfg1.N)) (iblk1 V c 1 (⟨m + 1, hn⟩ : Fin cfg1.N)) (iblk1 V c 4 (⟨m + 1, hn⟩ : Fin cfg1.N)) ((outsAt1 V c m (Nat.lt_of_succ_lt hn)).2.1 (ix2 r cc)) r cc p ((m + 1) % 8) hj
        (fun d => iblk1_0_apply V c (⟨m + 1, hn⟩ : Fin cfg1.N) r d p hp)
        (fun k d => iblk1_1_apply V c (⟨m + 1, hn⟩ : Fin cfg1.N) k d (Cert.Spec.row ⟨(m + 1) % 8, hj⟩ k) rfl)
        (fun k => iblk1_4_apply V c (⟨m + 1, hn⟩ : Fin cfg1.N) k cc (Cert.Spec.row ⟨(m + 1) % 8, hj⟩ k) rfl)
        (by rw [if_neg h0, ← hm8]; exact ih0)),
          (pay7_apply (iblk1 V c 2 (⟨m + 1, hn⟩ : Fin cfg1.N)) (iblk1 V c 3 (⟨m + 1, hn⟩ : Fin cfg1.N)) (iblk1 V c 4 (⟨m + 1, hn⟩ : Fin cfg1.N)) (outsAt1 V c m (Nat.lt_of_succ_lt hn)).2.2 r cc).trans
            (acc_step (E2 V c) (XX V c) (iblk1 V c 2 (⟨m + 1, hn⟩ : Fin cfg1.N)) (iblk1 V c 3 (⟨m + 1, hn⟩ : Fin cfg1.N)) (iblk1 V c 4 (⟨m + 1, hn⟩ : Fin cfg1.N)) ((outsAt1 V c m (Nat.lt_of_succ_lt hn)).2.2 (ix2 r cc)) r cc p ((m + 1) % 8) hj
        (fun d => iblk1_2_apply V c (⟨m + 1, hn⟩ : Fin cfg1.N) r d p hp)
        (fun k d => iblk1_3_apply V c (⟨m + 1, hn⟩ : Fin cfg1.N) k d (Cert.Spec.row ⟨(m + 1) % 8, hj⟩ k) rfl)
        (fun k => iblk1_4_apply V c (⟨m + 1, hn⟩ : Fin cfg1.N) k cc (Cert.Spec.row ⟨(m + 1) % 8, hj⟩ k) rfl)
        (by rw [if_neg h0, ← hm8]; exact ih1))⟩

/-- At a last step the output block holds, at row r, the last layer of row 1024 (n / 8) + r of the whole function. -/
theorem out_inv (c : Dev nD) (m : ℕ) (hn : m + 1 < cfg1.N) (h1 : (m + 1) % 8 = 7) (r : Fin 1024) (cc : Fin 256)
    (p : Fin 8192) (hp : p.val = 1024 * ((m + 1) / 8) + r.val) :
    ((outsAt1 V c (m + 1) hn).1 (ix2 r cc) : EReal) = Cert.Spec.outT (XX V c) (Cert.Spec.aggT (Cert.Spec.simT (E1 V c)) (XX V c)) (Cert.Spec.aggT (Cert.Spec.simT (E2 V c)) (XX V c)) (W3f V c) (B3f V c) p cc := by
  have h0 : ¬(m + 1) % 8 = 0 := by omega
  have hacc : ∀ d : Fin 256,
      (k1_pay6 (F := Ideal) (iblk1 V c 0 (⟨m + 1, hn⟩ : Fin cfg1.N)) (iblk1 V c 1 (⟨m + 1, hn⟩ : Fin cfg1.N)) (iblk1 V c 4 (⟨m + 1, hn⟩ : Fin cfg1.N)) (outsAt1 V c m (Nat.lt_of_succ_lt hn)).2.1 (ix2 r d) : EReal)
        = Cert.Spec.aggT (Cert.Spec.simT (E1 V c)) (XX V c) p d
      ∧ (k1_pay7 (F := Ideal) (iblk1 V c 2 (⟨m + 1, hn⟩ : Fin cfg1.N)) (iblk1 V c 3 (⟨m + 1, hn⟩ : Fin cfg1.N)) (iblk1 V c 4 (⟨m + 1, hn⟩ : Fin cfg1.N)) (outsAt1 V c m (Nat.lt_of_succ_lt hn)).2.2 (ix2 r d) : EReal)
        = Cert.Spec.aggT (Cert.Spec.simT (E2 V c)) (XX V c) p d := fun d => by
    have h := acc_inv V c (m + 1) hn r d p hp
    rw [outs_succ_C V c m hn h0 h1, stepC_acc0, stepC_acc1, pay1_eq, h1] at h
    exact h
  rw [outs_succ_C V c m hn h0 h1, stepC_out, pay1_eq]
  refine (pay2_apply (iblk1 V c 5 (⟨m + 1, hn⟩ : Fin cfg1.N)) (iblk1 V c 6 (⟨m + 1, hn⟩ : Fin cfg1.N)) _ _ (iblk1 V c 7 (⟨m + 1, hn⟩ : Fin cfg1.N)) r cc).trans ?_
  unfold Cert.Spec.outT
  rw [iblk1_7_apply V c (⟨m + 1, hn⟩ : Fin cfg1.N) cc]
  refine congrArg (fun s => max (s + V c main_arg10 (ix1 cc)) Cert.Spec.z) ?_
  refine congrArg₂ (· + ·) (congrArg₂ (· + ·) ?_ ?_) ?_
  · exact Finset.sum_congr rfl fun d _ => by
      rw [iblk1_5_apply V c (⟨m + 1, hn⟩ : Fin cfg1.N) r d p hp, iblk1_6_apply V c (⟨m + 1, hn⟩ : Fin cfg1.N) (Cert.Spec.w3row 0 d) cc]
  · exact Finset.sum_congr rfl fun d _ => by
      rw [(hacc d).1, iblk1_6_apply V c (⟨m + 1, hn⟩ : Fin cfg1.N) (Cert.Spec.w3row 1 d) cc]
  · exact Finset.sum_congr rfl fun d _ => by
      rw [(hacc d).2, iblk1_6_apply V c (⟨m + 1, hn⟩ : Fin cfg1.N) (Cert.Spec.w3row 2 d) cc]

/-- The same at a grid point. -/
theorem out_inv_t (c : Dev nD) (t : Fin cfg1.N) (h7 : t.val % 8 = 7) (r : Fin 1024) (cc : Fin 256)
    (p : Fin 8192) (hp : p.val = 1024 * (t.val / 8) + r.val) :
    ((outsAt1 V c t.val t.isLt).1 (ix2 r cc) : EReal) = Cert.Spec.outT (XX V c) (Cert.Spec.aggT (Cert.Spec.simT (E1 V c)) (XX V c)) (Cert.Spec.aggT (Cert.Spec.simT (E2 V c)) (XX V c)) (W3f V c) (B3f V c) p cc := by
  obtain ⟨n, hn⟩ := t
  cases n with
  | zero => exact absurd h7 (show ¬(0 : ℕ) % 8 = 7 by decide)
  | succ m => exact out_inv V c m hn h7 r cc p hp

/-! ## The output array when the region ends -/

/-- The tiled arrangement of the whole function, index by index. -/
abbrev G1_8 (c : Dev nD) : S8192x256.Idx → EReal := fun i =>
  Cert.Spec.outT (XX V c) (Cert.Spec.aggT (Cert.Spec.simT (E1 V c)) (XX V c)) (Cert.Spec.aggT (Cert.Spec.simT (E2 V c)) (XX V c)) (W3f V c) (B3f V c)
    (⟨(i 0).val, idx2_lt0 i⟩ : Fin 8192) (⟨(i 1).val, idx2_lt1 i⟩ : Fin 256)

/-- What a last step writes back to the output window is its block of that function of the whole arrays. -/
theorem flushed1_8_eq (c : Dev nD) (t : Fin cfg1.N) (h7 : t.val % 8 = 7) :
    (dat1 (F := Ideal) V c).flushed 8 t = ((cfg1.win 8).blk t).view.read (Elt Ideal) (G1_8 V c) := by
  show (cfg1.win 8).cut (grid1.coords t) ((dat1 (F := Ideal) V c).after 8 t) = _
  rw [after1_8]
  have hf := idx_facts1 t
  have ht := t_lt64 t
  funext j
  obtain ⟨r, q, rfl⟩ : ∃ (r : Fin 1024) (q : Fin 256), j = ix2 r q := ⟨j 0, j 1, eq_ix2 j⟩
  have hrow : 1024 * (t.val / 8) + r.val < 8192 := by have := r.isLt; omega
  refine (out_inv_t V c t h7 r q ⟨1024 * (t.val / 8) + r.val, hrow⟩ rfl).trans ?_
  have hemb : ((cfg1.win 8).blk t).view.emb (ix2 r q) = (ix2 (⟨1024 * (t.val / 8) + r.val, hrow⟩ : Fin 8192) q : S8192x256.Idx) := by
    funext a; apply Fin.ext
    match a with
    | ⟨0, _⟩ => show win1_8.index t (0 : Fin 2) * 1024 + 1 * r.val = 1024 * (t.val / 8) + r.val; omega
    | ⟨1, _⟩ => show win1_8.index t (1 : Fin 2) * 256 + 1 * q.val = q.val; omega
  show _ = G1_8 V c (((cfg1.win 8).blk t).view.emb (ix2 r q))
  rw [hemb]

/-- An index of the output array is in point t's block iff each coordinate is in the block's range on its axis. -/
theorem mem_blk1_8 (t : Fin cfg1.N) (i : S8192x256.Idx) :
    i ∈ ((cfg1.win 8).blk t).view.set ↔ ∀ a : Fin 2, win1_8.index t a * S1024x256.size a ≤ (i a).val ∧ (i a).val < win1_8.index t a * S1024x256.size a + S1024x256.size a := by
  show i ∈ ((View.whole main_v1).slice (win1_8.rect t)).set ↔ _
  rw [View.set_slice_whole, Rect.mem_set_unit]
  exact Iff.rfl

/-- The output blocks of the eight last steps tile the 8192 rows: row i is in the block written back at point
    8 (i / 1024) + 7. -/
theorem cover1_8 (i : S8192x256.Idx) : ∃ t : Fin cfg1.N, (cfg1.win 8).flush t = true ∧ i ∈ ((cfg1.win 8).blk t).view.set := by
  have hi0 : (i 0).val < 8192 := idx2_lt0 i
  have hi1 : (i 1).val < 256 := idx2_lt1 i
  have hN : 8 * ((i 0).val / 1024) + 7 < grid1.N := by rw [N_1]; omega
  refine ⟨(⟨8 * ((i 0).val / 1024) + 7, hN⟩ : Fin grid1.N), (flush1_8 _).mpr (by show (8 * ((i 0).val / 1024) + 7) % 8 = 7; omega), ?_⟩
  obtain ⟨-, -, -, -, -, -, -, -, -, -, -, -, -, -, -, e0, e1⟩ := idx_facts1 (⟨8 * ((i 0).val / 1024) + 7, hN⟩ : Fin grid1.N)
  rw [mem_blk1_8]
  intro a
  match a with
  | ⟨0, _⟩ =>
    show win1_8.index (⟨8 * ((i 0).val / 1024) + 7, hN⟩ : Fin grid1.N) (0 : Fin 2) * 1024 ≤ (i 0).val ∧ (i 0).val < win1_8.index (⟨8 * ((i 0).val / 1024) + 7, hN⟩ : Fin grid1.N) (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_8.index (⟨8 * ((i 0).val / 1024) + 7, hN⟩ : Fin grid1.N) (1 : Fin 2) * 256 ≤ (i 1).val ∧ (i 1).val < win1_8.index (⟨8 * ((i 0).val / 1024) + 7, hN⟩ : Fin grid1.N) (1 : Fin 2) * 256 + 256
    rw [e1]; omega

/-- The output array when the region ends: the tiled arrangement of the whole function, at every index. -/
theorem final1_8 (c : Dev nD) (p : Fin 8192) (q : Fin 256) :
    ((dat1 (F := Ideal) V c).arrAt 8 cfg1.N : S8192x256.Idx → EReal) (ix2 p q)
      = Cert.Spec.outT (fun a b => V c main_v0_2 (ix2 a b))
          (Cert.Spec.aggT (Cert.Spec.simT (fun a b => V c main_v0_0 (ix2 a b))) (fun a b => V c main_v0_2 (ix2 a b)))
          (Cert.Spec.aggT (Cert.Spec.simT (fun a b => V c main_v0_1 (ix2 a b))) (fun a b => V c main_v0_2 (ix2 a b)))
          (fun a b => V c main_arg9 (ix2 a b)) (fun a => V c main_arg10 (ix1 a)) p q := by
  rw [(dat1 (F := Ideal) V c).arrAt_eq_of_cover 8 (G1_8 V c) (fun t hf => flushed1_8_eq V c t ((flush1_8 t).mp hf)) (cover1_8)]

end Cert.KernelIdeal.Hand

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.Algebra.lean ====
/-
  The tiled and the plain arrangements of the specification agree on all extended-real arrays.  Three facts:
  multiplying by the word of 1/256 is dividing by the word of 256; a running total over eight blocks of 1024 rows
  started at zero is the sum over all 8192 rows; a contraction over 768 joined columns is the sum of its three
  stretches of 256.  Only commutativity and associativity of addition are used, so no finiteness is needed.
-/
import proofs.«111572_j12214886990221_2_alg».proof.Proof.Spec
import proofs.«111572_j12214886990221_2_alg».proof.Proof.LibReindex
import Idealize.ShloMosaic.PureOps.Ideal.Laws

noncomputable section

namespace Cert.Spec

open Idealize.ShloMosaic

/-- The word `+0.0` denotes zero. -/
theorem z_eq : z = 0 := Ideal.ofBits_zero_f32

/-- The word `0x3B800000` denotes 1/256. -/
theorem cInv_eq : cInv = ((1 / 256 : ℝ) : EReal) := by
  simp [cInv, Ideal.ofBits, Ideal.ieee, -EReal.coe_mul]; norm_num

/-- The word `0x43800000` denotes 256. -/
theorem c256_eq : c256 = ((256 : ℝ) : EReal) := by
  simp [c256, Ideal.ofBits, Ideal.ieee, -EReal.coe_mul]; norm_num

/-- Multiplying by 1/256 is dividing by 256, at the infinities too. -/
theorem simT_eq_simP (e : Fin 8192 → Fin 256 → EReal) : simT e = simP e := by
  funext i k
  unfold simT simP
  rw [c256_eq, cInv_eq, Ideal.div_coe (by norm_num : (256 : ℝ) ≠ 0)]

/-- The running total after all eight blocks is the sum of the eight blocks. -/
theorem accT_seven (sim : Fin 8192 → Fin 8192 → EReal) (x : Fin 8192 → Fin 256 → EReal) (i : Fin 8192) (c : Fin 256) :
    accT sim x i c 7 = ∑ j : Fin 8, blockT sim x j i c := by
  rw [Fin.sum_univ_eight]
  simp only [accT, z_eq, zero_add]
  simp

/-- The sum over all 8192 rows is the sum over eight blocks of 1024 rows. -/
theorem aggT_eq_aggP (sim : Fin 8192 → Fin 8192 → EReal) (x : Fin 8192 → Fin 256 → EReal) : aggT sim x = aggP sim x := by
  funext i c
  unfold aggT aggP
  rw [accT_seven, Cert.LibReindex.sum_mul_add' 8 1024 (by norm_num) (fun k : Fin 8192 => sim i k * x k c)]
  rfl

/-- The contraction over the 768 joined columns is the sum of its three stretches of 256. -/
theorem outT_eq_outP (x a1 a2 : Fin 8192 → Fin 256 → EReal) (W3 : Fin 768 → Fin 256 → EReal) (b3 : Fin 256 → EReal) :
    outT x a1 a2 W3 b3 = outP x a1 a2 W3 b3 := by
  funext i c
  unfold outT outP
  rw [Cert.LibReindex.sum_three_blocks 256 256 256 (by norm_num) (fun k : Fin 768 => cat3 x a1 a2 i k * W3 k c)]
  have h0 : ∀ (d : Fin 256) (h : d.val < 768), cat3 x a1 a2 i ⟨d.val, h⟩ = x i d := fun d h => by
    unfold cat3
    rw [dif_pos (show (⟨d.val, h⟩ : Fin 768).val < 256 from d.isLt)]
  have h1 : ∀ (d : Fin 256) (h : 256 + d.val < 768), cat3 x a1 a2 i ⟨256 + d.val, h⟩ = a1 i d := fun d h => by
    unfold cat3
    rw [dif_neg (show ¬ (⟨256 + d.val, h⟩ : Fin 768).val < 256 from by simp),
      dif_pos (show (⟨256 + d.val, h⟩ : Fin 768).val < 512 from by have := d.isLt; simp only; omega)]
    exact congrArg (a1 i) (Fin.ext (by simp))
  have h2 : ∀ (d : Fin 256) (h : 256 + 256 + d.val < 768), cat3 x a1 a2 i ⟨256 + 256 + d.val, h⟩ = a2 i d := fun d h => by
    unfold cat3
    rw [dif_neg (show ¬ (⟨256 + 256 + d.val, h⟩ : Fin 768).val < 256 from by simp only; omega),
      dif_neg (show ¬ (⟨256 + 256 + d.val, h⟩ : Fin 768).val < 512 from by simp only; omega)]
    exact congrArg (a2 i) (Fin.ext (by simp only; omega))
  have w0 : ∀ (d : Fin 256) (h : d.val < 768), (⟨d.val, h⟩ : Fin 768) = w3row 0 d := fun d h =>
    Fin.ext (by simp [w3row])
  have w1 : ∀ (d : Fin 256) (h : 256 + d.val < 768), (⟨256 + d.val, h⟩ : Fin 768) = w3row 1 d := fun d h =>
    Fin.ext (by simp [w3row])
  have w2 : ∀ (d : Fin 256) (h : 256 + 256 + d.val < 768), (⟨256 + 256 + d.val, h⟩ : Fin 768) = w3row 2 d := fun d h =>
    Fin.ext (by simp [w3row])
  refine congrArg (fun t => max (t + b3 c) z) ?_
  refine congrArg₂ (· + ·) (congrArg₂ (· + ·) ?_ ?_) ?_
  · exact (Finset.sum_congr rfl fun d _ => by rw [h0, w0]).symm
  · exact (Finset.sum_congr rfl fun d _ => by rw [h1, w1]).symm
  · exact (Finset.sum_congr rfl fun d _ => by rw [h2, w2]).symm

/-- The two arrangements agree on all extended-real arrays. -/
theorem wholeT_eq_wholeP (x : Fin 8192 → Fin 256 → EReal) (W1 : Fin 256 → Fin 256 → EReal) (b1 : Fin 256 → EReal)
    (W2 : Fin 256 → Fin 256 → EReal) (b2 : Fin 256 → EReal) (W3 : Fin 768 → Fin 256 → EReal) (b3 : Fin 256 → EReal) :
    wholeT x W1 b1 W2 b2 W3 b3 = wholeP x W1 b1 W2 b2 W3 b3 := by
  unfold wholeT wholeP
  rw [outT_eq_outP, simT_eq_simP, simT_eq_simP, aggT_eq_aggP, aggT_eq_aggP]

end Cert.Spec

end
-- ==== Proof.RefValue.lean ====
/-
  The reference's result, read one element at a time, is the plain arrangement of the specification: two linear
  layers clamped at zero, their Gram matrices divided by 256, the two aggregates as single sums over all rows, the
  three arrays joined side by side and contracted against the last weight matrix, the bias and the final clamp.
  Each stage is read at an index built from its coordinates; nothing is assumed about the arrays' entries.
-/
import proofs.«111572_j12214886990221_2_alg».proof.Proof.Gen.ReferenceIdeal.Read
import proofs.«111572_j12214886990221_2_alg».proof.Proof.Spec

noncomputable section

namespace Cert.Hand.RefValue

open Cert.ReferenceIdeal Cert.ReferenceIdeal.Gen Cert.ReferenceIdeal.Read Idealize.ShloMosaic Idealize.ShloMosaic.ValueIdx
  Idealize.SL.Sem Idealize.ShloMosaic.StableHlo

/-- An array of extended reals over a shape. -/
abbrev Arr (s : Shape) := (⟨s, .f32⟩ : BufTy).Contents (Elt Ideal)

/-- A rank-two array as a function of its two coordinates. -/
abbrev fn2 {n0 n1 : Nat} (x : Arr ⟨2, ![n0, n1]⟩) : Fin n0 → Fin n1 → EReal := fun a b => x (ix2 a b)
/-- A rank-one array as a function of its coordinate. -/
abbrev fn1 {n : Nat} (x : Arr ⟨1, ![n]⟩) : Fin n → EReal := fun a => x (ix1 a)

/-! ## The index maps of the stages, at indices built from coordinates -/

theorem l_v0 (p : Fin 8192) (d k : Fin 256) : lidx_main_v0 (ix2 p d) k = ix2 p k :=
  funext fun a => by match a with | ⟨0, _⟩ => rfl | ⟨1, _⟩ => rfl
theorem r_v0 (p : Fin 8192) (d k : Fin 256) : ridx_main_v0 (ix2 p d) k = ix2 k d :=
  funext fun a => by match a with | ⟨0, _⟩ => rfl | ⟨1, _⟩ => rfl
theorem l_v9 (p : Fin 8192) (d k : Fin 256) : lidx_main_v9 (ix2 p d) k = ix2 p k :=
  funext fun a => by match a with | ⟨0, _⟩ => rfl | ⟨1, _⟩ => rfl
theorem r_v9 (p : Fin 8192) (d k : Fin 256) : ridx_main_v9 (ix2 p d) k = ix2 k d :=
  funext fun a => by match a with | ⟨0, _⟩ => rfl | ⟨1, _⟩ => rfl
theorem b_v2 (p : Fin 8192) (d : Fin 256) : idx_main_v1 (idx_main_v2 (ix2 p d)) = ix1 d :=
  funext fun a => by match a with | ⟨0, _⟩ => rfl
theorem b_v11 (p : Fin 8192) (d : Fin 256) : idx_main_v10 (idx_main_v11 (ix2 p d)) = ix1 d :=
  funext fun a => by match a with | ⟨0, _⟩ => rfl
theorem b_v23 (p : Fin 8192) (d : Fin 256) : idx_main_v22 (idx_main_v23 (ix2 p d)) = ix1 d :=
  funext fun a => by match a with | ⟨0, _⟩ => rfl
theorem t_v5 (d : Fin 256) (k : Fin 8192) : idx_main_v5 (ix2 d k) = ix2 k d :=
  funext fun a => by match a with | ⟨0, _⟩ => rfl | ⟨1, _⟩ => rfl
theorem t_v14 (d : Fin 256) (k : Fin 8192) : idx_main_v14 (ix2 d k) = ix2 k d :=
  funext fun a => by match a with | ⟨0, _⟩ => rfl | ⟨1, _⟩ => rfl
theorem l_v6 (i k : Fin 8192) (d : Fin 256) : lidx_main_v6 (ix2 i k) d = ix2 i d :=
  funext fun a => by match a with | ⟨0, _⟩ => rfl | ⟨1, _⟩ => rfl
theorem r_v6 (i k : Fin 8192) (d : Fin 256) : ridx_main_v6 (ix2 i k) d = ix2 d k :=
  funext fun a => by match a with | ⟨0, _⟩ => rfl | ⟨1, _⟩ => rfl
theorem l_v15 (i k : Fin 8192) (d : Fin 256) : lidx_main_v15 (ix2 i k) d = ix2 i d :=
  funext fun a => by match a with | ⟨0, _⟩ => rfl | ⟨1, _⟩ => rfl
theorem r_v15 (i k : Fin 8192) (d : Fin 256) : ridx_main_v15 (ix2 i k) d = ix2 d k :=
  funext fun a => by match a with | ⟨0, _⟩ => rfl | ⟨1, _⟩ => rfl
theorem l_v18 (i k : Fin 8192) (c : Fin 256) : lidx_main_v18 (ix2 i c) k = ix2 i k :=
  funext fun a => by match a with | ⟨0, _⟩ => rfl | ⟨1, _⟩ => rfl
theorem r_v18 (i k : Fin 8192) (c : Fin 256) : ridx_main_v18 (ix2 i c) k = ix2 k c :=
  funext fun a => by match a with | ⟨0, _⟩ => rfl | ⟨1, _⟩ => rfl
theorem l_v19 (i k : Fin 8192) (c : Fin 256) : lidx_main_v19 (ix2 i c) k = ix2 i k :=
  funext fun a => by match a with | ⟨0, _⟩ => rfl | ⟨1, _⟩ => rfl
theorem r_v19 (i k : Fin 8192) (c : Fin 256) : ridx_main_v19 (ix2 i c) k = ix2 k c :=
  funext fun a => by match a with | ⟨0, _⟩ => rfl | ⟨1, _⟩ => rfl
theorem l_v21 (i : Fin 8192) (c : Fin 256) (k : Fin 768) : lidx_main_v21 (ix2 i c) k = ix2 i k :=
  funext fun a => by match a with | ⟨0, _⟩ => rfl | ⟨1, _⟩ => rfl
theorem r_v21 (i : Fin 8192) (c : Fin 256) (k : Fin 768) : ridx_main_v21 (ix2 i c) k = ix2 k c :=
  funext fun a => by match a with | ⟨0, _⟩ => rfl | ⟨1, _⟩ => rfl

/-! ## The stages -/

/-- The first linear layer with its clamp, read at an index. -/
theorem lin1 (x3 : Arr S8192x256) (x5 : Arr S256x256) (x6 : Arr S256) (p : Fin 8192) (d : Fin 256) :
    val_main_v4 (F := Ideal) x3 x5 x6 (ix2 p d) = Cert.Spec.lin (fn2 x3) (fn2 x5) (fn1 x6) p d := by
  rw [val_main_v4_apply, val_main_v3_apply, val_main_v0_apply, val_main_v2_apply, val_main_v1_apply,
    val_main_call0_v0_apply, val_main_call0_cst_apply, b_v2]
  refine congrArg (fun t => max (t + x6 (ix1 d)) Cert.Spec.z) ?_
  exact Finset.sum_congr rfl fun k _ => by rw [l_v0, r_v0]

/-- The second linear layer with its clamp, read at an index. -/
theorem lin2 (x3 : Arr S8192x256) (x7 : Arr S256x256) (x8 : Arr S256) (p : Fin 8192) (d : Fin 256) :
    val_main_v13 (F := Ideal) x3 x7 x8 (ix2 p d) = Cert.Spec.lin (fn2 x3) (fn2 x7) (fn1 x8) p d := by
  rw [val_main_v13_apply, val_main_v12_apply, val_main_v9_apply, val_main_v11_apply, val_main_v10_apply,
    val_main_call1_v0_apply, val_main_call1_cst_apply, b_v11]
  refine congrArg (fun t => max (t + x8 (ix1 d)) Cert.Spec.z) ?_
  exact Finset.sum_congr rfl fun k _ => by rw [l_v9, r_v9]

/-- The similarity, read at an index: the Gram entry of the clamped layer divided by the word of 256. -/
theorem sim1 (x3 : Arr S8192x256) (x5 : Arr S256x256) (x6 : Arr S256) (i k : Fin 8192) :
    val_main_v8 (F := Ideal) x3 x5 x6 (ix2 i k) = Cert.Spec.simP (Cert.Spec.lin (fn2 x3) (fn2 x5) (fn1 x6)) i k := by
  rw [val_main_v8_apply, val_main_v6_apply, val_main_v7_apply, val_main_cst_apply]
  refine congrArg (fun t => Ideal.div t Cert.Spec.c256) ?_
  exact Finset.sum_congr rfl fun d _ => by rw [l_v6, r_v6, val_main_v5_apply, t_v5, lin1, lin1]

/-- The similarity, read at an index: the Gram entry of the clamped layer divided by the word of 256. -/
theorem sim2 (x3 : Arr S8192x256) (x7 : Arr S256x256) (x8 : Arr S256) (i k : Fin 8192) :
    val_main_v17 (F := Ideal) x3 x7 x8 (ix2 i k) = Cert.Spec.simP (Cert.Spec.lin (fn2 x3) (fn2 x7) (fn1 x8)) i k := by
  rw [val_main_v17_apply, val_main_v15_apply, val_main_v16_apply, val_main_cst_0_apply]
  refine congrArg (fun t => Ideal.div t Cert.Spec.c256) ?_
  exact Finset.sum_congr rfl fun d _ => by rw [l_v15, r_v15, val_main_v14_apply, t_v14, lin2, lin2]

/-- The aggregate, read at an index: one sum over all 8192 rows. -/
theorem agg1 (x3 : Arr S8192x256) (x5 : Arr S256x256) (x6 : Arr S256) (i : Fin 8192) (c : Fin 256) :
    val_main_v18 (F := Ideal) x3 x5 x6 (ix2 i c)
      = Cert.Spec.aggP (Cert.Spec.simP (Cert.Spec.lin (fn2 x3) (fn2 x5) (fn1 x6))) (fn2 x3) i c := by
  rw [val_main_v18_apply]
  exact Finset.sum_congr rfl fun k _ => by rw [l_v18, r_v18, sim1]

/-- The aggregate, read at an index: one sum over all 8192 rows. -/
theorem agg2 (x3 : Arr S8192x256) (x7 : Arr S256x256) (x8 : Arr S256) (i : Fin 8192) (c : Fin 256) :
    val_main_v19 (F := Ideal) x3 x7 x8 (ix2 i c)
      = Cert.Spec.aggP (Cert.Spec.simP (Cert.Spec.lin (fn2 x3) (fn2 x7) (fn1 x8))) (fn2 x3) i c := by
  rw [val_main_v19_apply]
  exact Finset.sum_congr rfl fun k _ => by rw [l_v19, r_v19, sim2]

/-- Three arrays of 256 columns joined side by side, read at an index: the piece that holds the column. -/
theorem cat_read (y0 y1 y2 : Arr S8192x256) (p : Fin 8192) (k : Fin 768) :
    concatenate S8192x768 1 [⟨S8192x256, y0⟩, ⟨S8192x256, y1⟩, ⟨S8192x256, y2⟩]
        concatenates_S8192x256_S8192x256_S8192x256_S8192x768_d1 (ix2 p k)
      = Cert.Spec.cat3 (fn2 y0) (fn2 y1) (fn2 y2) p k := by
  unfold Cert.Spec.cat3
  by_cases h0 : k.val < 256
  · rw [dif_pos h0]
    exact concatenate_apply_piece (1 : Fin S8192x768.rank) _ _ (ix2 p k) 0 (by simp) S8192x256 y0 rfl rfl 0 rfl
      (ix2 p ⟨k.val, h0⟩) (fun b hb => by match b with | ⟨0, _⟩ => rfl | ⟨1, _⟩ => exact absurd rfl hb) (Nat.zero_add _)
  · rw [dif_neg h0]
    by_cases h1 : k.val < 512
    · rw [dif_pos h1]
      exact concatenate_apply_piece (1 : Fin S8192x768.rank) _ _ (ix2 p k) 1 (by simp) S8192x256 y1 rfl rfl 256 rfl
        (ix2 p ⟨k.val - 256, by omega⟩) (fun b hb => by match b with | ⟨0, _⟩ => rfl | ⟨1, _⟩ => exact absurd rfl hb)
        (show 256 + (k.val - 256) = k.val by omega)
    · rw [dif_neg h1]
      exact concatenate_apply_piece (1 : Fin S8192x768.rank) _ _ (ix2 p k) 2 (by simp) S8192x256 y2 rfl rfl 512 rfl
        (ix2 p ⟨k.val - 512, by have := k.isLt; omega⟩) (fun b hb => by match b with | ⟨0, _⟩ => rfl | ⟨1, _⟩ => exact absurd rfl hb)
        (show 512 + (k.val - 512) = k.val by omega)

/-- The reference's result, read at an index, is the plain arrangement of the specification. -/
theorem ref_eq (x3 : (⟨S8192x256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S768x256, .f32⟩ : BufTy).Contents (Elt Ideal))
    (x10 : (⟨S256, .f32⟩ : BufTy).Contents (Elt Ideal)) (p : Fin 8192) (q : Fin 256) :
    val_main_v25 (F := Ideal) x3 x5 x6 x7 x8 x9 x10 (ix2 p q)
      = Cert.Spec.wholeP (fun a b => x3 (ix2 a b)) (fun a b => x5 (ix2 a b)) (fun a => x6 (ix1 a))
          (fun a b => x7 (ix2 a b)) (fun a => x8 (ix1 a)) (fun a b => x9 (ix2 a b)) (fun a => x10 (ix1 a)) p q := by
  rw [val_main_v25_apply, val_main_v24_apply, val_main_v21_apply, val_main_v23_apply, val_main_v22_apply,
    val_main_call2_v0_apply, val_main_call2_cst_apply, b_v23]
  refine congrArg (fun t => max (t + x10 (ix1 q)) Cert.Spec.z) ?_
  refine Finset.sum_congr rfl fun k _ => ?_
  rw [l_v21, r_v21]
  refine congrArg (fun t => t * x9 (ix2 k q)) ?_
  unfold val_main_v20
  rw [cat_read]
  refine congrArg₂ (fun u v => Cert.Spec.cat3 (fn2 x3) u v p k) ?_ ?_
  · funext a b; exact agg1 x3 x5 x6 a b
  · funext a b; exact agg2 x3 x7 x8 a b

end Cert.Hand.RefValue

end
-- ==== Proof.Bridge.lean ====
/-
  The certificate's claims about the two programs, from the runs.  At the ideal values the kernel's result array, read at
  an index, is the tiled arrangement of the specification applied to the launch contents: its second region computes the
  tiled last layer of the three arrays its first region wrote, and those are the two linear layers of the input and the
  input itself.  The reference's result is the plain arrangement, and the two arrangements are one function on the
  extended reals; so from memories agreeing on the arguments the two programs end with equal results.  The three frame
  claims are the runs with the result's equation dropped.
-/
import proofs.«111572_j12214886990221_2_alg».proof.Defs
import proofs.«111572_j12214886990221_2_alg».proof.Proof.Run
import proofs.«111572_j12214886990221_2_alg».proof.Proof.BitsRun
import proofs.«111572_j12214886990221_2_alg».proof.Proof.Region0Value
import proofs.«111572_j12214886990221_2_alg».proof.Proof.Region1Value
import proofs.«111572_j12214886990221_2_alg».proof.Proof.Algebra
import proofs.«111572_j12214886990221_2_alg».proof.Proof.RefValue
import proofs.«111572_j12214886990221_2_alg».proof.Proof.Gen.Kernel
import proofs.«111572_j12214886990221_2_alg».proof.Proof.Gen.KernelIdeal
import proofs.«111572_j12214886990221_2_alg».proof.Proof.Gen.ReferenceIdeal
import proofs.«111572_j12214886990221_2_alg».proof.Proof.Gen.Pre_finite_inputs
import proofs.«111572_j12214886990221_2_alg».proof.Proof.Gen.ReferenceIdeal.Run
import proofs.«111572_j12214886990221_2_alg».proof.Proof.Gen.ReferenceIdeal.Read

noncomputable section

namespace Cert.Proof.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The second region's inputs, read back to the launch contents -/

/-- The first region's first output, as the second region finds it, is the first linear layer of the launched input. -/
theorem v1_e1 (c : Dev nD) (a : Fin 8192) (b : Fin 256) :
    (V1 m c main_v0_0 (ix2 a b) : EReal) = Cert.Spec.lin (fun a b => m ((c : Thread nD τ).loc main_arg3) (ix2 a b))
      (fun a b => m ((c : Thread nD τ).loc main_arg5) (ix2 a b)) (fun a => m ((c : Thread nD τ).loc main_arg6) (ix1 a)) a b :=
  (congrFun (W1_arr m c 5) (ix2 a b)).trans (final0_5 (V0 m) c a b)

/-- Its second output is the second linear layer. -/
theorem v1_e2 (c : Dev nD) (a : Fin 8192) (b : Fin 256) :
    (V1 m c main_v0_1 (ix2 a b) : EReal) = Cert.Spec.lin (fun a b => m ((c : Thread nD τ).loc main_arg3) (ix2 a b))
      (fun a b => m ((c : Thread nD τ).loc main_arg7) (ix2 a b)) (fun a => m ((c : Thread nD τ).loc main_arg8) (ix1 a)) a b :=
  (congrFun (W1_arr m c 6) (ix2 a b)).trans (final0_6 (V0 m) c a b)

/-- Its third output is the launched input. -/
theorem v1_x (c : Dev nD) (a : Fin 8192) (b : Fin 256) :
    (V1 m c main_v0_2 (ix2 a b) : EReal) = m ((c : Thread nD τ).loc main_arg3) (ix2 a b) :=
  (congrFun (W1_arr m c 7) (ix2 a b)).trans (final0_7 (V0 m) c a b)

/-- The last layer's weights and bias are no array of the first region: it leaves them as launched. -/
theorem v1_w3 (c : Dev nD) : V1 m c main_arg9 = m ((c : Thread nD τ).loc main_arg9) :=
  W1_of_ne m c main_arg9 (by decide)
theorem v1_b3 (c : Dev nD) : V1 m c main_arg10 = m ((c : Thread nD τ).loc main_arg10) :=
  W1_of_ne m c main_arg10 (by decide)

/-! ## The kernel's result -/

/-- The program's result array, read at an index, is the tiled arrangement of the specification of the launch contents. -/
theorem kernel_value (c : Dev nD) (p : Fin 8192) (q : Fin 256) :
    ((dat1 (F := Ideal) (V1 m) c).arrAt 8 cfg1.N : S8192x256.Idx → EReal) (ix2 p q)
      = Cert.Spec.wholeT (fun a b => m ((c : Thread nD τ).loc main_arg3) (ix2 a b)) (fun a b => m ((c : Thread nD τ).loc main_arg5) (ix2 a b)) (fun a => m ((c : Thread nD τ).loc main_arg6) (ix1 a))
          (fun a b => m ((c : Thread nD τ).loc main_arg7) (ix2 a b)) (fun a => m ((c : Thread nD τ).loc main_arg8) (ix1 a)) (fun a b => m ((c : Thread nD τ).loc main_arg9) (ix2 a b)) (fun a => m ((c : Thread nD τ).loc main_arg10) (ix1 a)) p q := by
  rw [final1_8 (V1 m) c p q]
  unfold Cert.Spec.wholeT
  simp only [v1_e1 m c, v1_e2 m c, v1_x m c, v1_w3 m c, v1_b3 m c]

/-! ## The claims -/

/-- The kernel, as printed, runs and leaves its arguments as launched. -/
theorem frame_Kernel : Cert.frame_Kernel := fun m ρ _ => Cert.Kernel.Hand.frame m ρ

/-- So does its reading at the ideal values. -/
theorem frame_KernelIdeal : Cert.frame_KernelIdeal := fun m ρ _ => Cert.KernelIdeal.Hand.frame m ρ

/-- The reference runs and leaves its arguments as launched: its run with the result's equation dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- At the ideal values the two programs, from memories agreeing on the arguments, both run and end with equal results:
    the kernel's is the tiled arrangement of the specification, the reference's the plain one, and the two arrangements
    are one function. -/
theorem algebraic : Cert.algebraic_KernelIdeal_ReferenceIdeal := by
  intro m ρ m' ρ' _ hagree
  refine ⟨fun c => (dat1 (F := Ideal) (V1 m) c).arrAt 8 cfg1.N, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  obtain ⟨-, -, -, h3, -, h5, h6, h7, h8, h9, h10⟩ := hagree c
  rw [h3, h5, h6, h7, h8, h9, h10]
  funext i
  obtain ⟨p, q, rfl⟩ : ∃ (p : Fin 8192) (q : Fin 256), i = ix2 p q := ⟨i 0, i 1, eq_ix2 i⟩
  rw [Cert.Hand.RefValue.ref_eq, ← Cert.Spec.wholeT_eq_wholeP]
  exact (kernel_value m c p q).symm

end Cert.Proof.Bridge

end
-- ==== Proof.lean ====
/-
  The certificate's claims.  The program runs two kernel regions in sequence: the first computes the two clamped linear
  layers e₁, e₂ of the edge features (and a copy of the features), block of rows by block of rows; the second, for each
  row block i, accumulates over the eight blocks j the products (e_s[i]·e_s[j]ᵀ / 256)·x[j] in two carried accumulators
  and, at the last block, applies the final linear layer to [x | agg₁ | agg₂] and clamps.  The reference computes the same
  function with every contraction taken whole.

  * The three frames: each program terminates without a fault and leaves its argument arrays unchanged — for the two
    kernel programs by following every unscoped buffer through the two regions (an argument is read only through input
    windows, or not at all), at the word-level and at the ideal instance alike; for the reference from its run.
  * The idealization rewrote no operation, so its preservation claim is trivially true.
  * The two idealized programs end with equal results on every extended-real input: the kernel's result array is the
    tiled arrangement of the specification, the reference's the plain arrangement, and the two agree because scaling by
    the word 2⁻⁸ is dividing by the word 256, a running total over eight blocks is the whole sum, and a contraction over
    768 joined columns is the sum of its three stretches — commutativity and associativity of addition only, so the
    precondition is not used.
-/
import proofs.«111572_j12214886990221_2_alg».proof.Defs
import proofs.«111572_j12214886990221_2_alg».proof.Proof.Gen.Kernel
import proofs.«111572_j12214886990221_2_alg».proof.Proof.Gen.KernelIdeal
import proofs.«111572_j12214886990221_2_alg».proof.Proof.Gen.ReferenceIdeal
import proofs.«111572_j12214886990221_2_alg».proof.Proof.Gen.Pre_finite_inputs
import proofs.«111572_j12214886990221_2_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Bridge.frame_Kernel, Cert.Proof.Bridge.frame_KernelIdeal, Cert.Proof.Bridge.frame_ReferenceIdeal,
    trivial, Cert.Proof.Bridge.algebraic⟩

end Cert.Proof

end
